-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S256x1024 : Shape := ⟨2, ![256, 1024]⟩
abbrev S2048x4096 : Shape := ⟨2, ![2048, 4096]⟩
abbrev S1x2048 : Shape := ⟨2, ![1, 2048]⟩
abbrev S256x2048 : Shape := ⟨2, ![256, 2048]⟩
abbrev S2048x1024 : Shape := ⟨2, ![2048, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S4096x4096, .bf16⟩
  | .hbm, ⟨6, _⟩ => ⟨S16384x4096, .f32⟩
  | .hbm, ⟨7, _⟩ => ⟨S8x2048x4096, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2048x4096, .bf16⟩
  | .local _ .vmem, ⟨9, _⟩ => ⟨S2048x4096, .bf16⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S8x2048x4096_S16384x4096 : S8x2048x4096.ShapeCasts S16384x4096
  shapeCasts_S4096_S1x4096 : S4096.ShapeCasts S1x4096
  bitsLt_bf16_f32 : FTy.bits .bf16 < FTy.bits .f32
  shapeCasts_S16384x4096_S8x2048x4096 : S16384x4096.ShapeCasts S8x2048x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x4096_S2048x1024_0_0 : ∀ a, (![0, 0] : Fin 2 → Nat) a + S2048x1024.size a ≤ S2048x4096.size a
  h_S2048x1024 : 0 < S2048x1024.numel
  shapeCasts_S2048x1024_S2048x1024 : S2048x1024.ShapeCasts S2048x1024
  inb_S2048x4096_S2048x1024_0_1024 : ∀ a, (![0, 1024] : Fin 2 → Nat) a + S2048x1024.size a ≤ S2048x4096.size a
  inb_S2048x4096_S2048x1024_0_2048 : ∀ a, (![0, 2048] : Fin 2 → Nat) a + S2048x1024.size a ≤ S2048x4096.size a
  inb_S2048x4096_S2048x1024_0_3072 : ∀ a, (![0, 3072] : Fin 2 → Nat) a + S2048x1024.size a ≤ S2048x4096.size a
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x4096.size a
  hwx0_0 : ∀ i : grid0.Coords, EltTy.bits .f32 = 32 ∨ (Rect.block (s := S16384x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x4096.size a
  hwx0_1 : ∀ i : grid0.Coords, EltTy.bits .f32 = 32 ∨ (Rect.block (s := S16384x4096) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x4096.size a
  hwx0_2 : ∀ i : grid0.Coords, EltTy.bits .f32 = 32 ∨ (Rect.block (s := S16384x4096) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x4096.size a
  hwx0_3 : ∀ i : grid0.Coords, EltTy.bits .f32 = 32 ∨ (Rect.block (s := S16384x4096) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x4096.size a ≤ S4096x4096.size a
  hwx0_4 : ∀ i : grid0.Coords, EltTy.bits .bf16 = 32 ∨ (Rect.block (s := S4096x4096) S2048x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x4096.size a
  hwx0_5 : ∀ i : grid0.Coords, EltTy.bits .f32 = 32 ∨ (Rect.block (s := S1x4096) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S16384x4096.size a
  hwx0_6 : ∀ i : grid0.Coords, EltTy.bits .f32 = 32 ∨ (Rect.block (s := S16384x4096) S256x2048.size (cc0_transform_6 i) (hinb0_6 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_call0_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S2048x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S256x1024 : Shape := ⟨2, ![256, 1024]⟩
abbrev S512x1024 : Shape := ⟨2, ![512, 1024]⟩
abbrev S1x512 : Shape := ⟨2, ![1, 512]⟩
abbrev S256x512 : Shape := ⟨2, ![256, 512]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S8x2048x4096, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![64, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x2048x4096_S16384x4096 : S8x2048x4096.ShapeCasts S16384x4096
  shapeCasts_S4096_S1x4096 : S4096.ShapeCasts S1x4096
  shapeCasts_S16384x4096_S8x2048x4096 : S16384x4096.ShapeCasts S8x2048x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x4096.size a
  hwx0_0 : ∀ i : grid0.Coords, EltTy.bits .f32 = 32 ∨ (Rect.block (s := S16384x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S16384x4096.size a
  hwx0_3 : ∀ i : grid0.Coords, EltTy.bits .f32 = 32 ∨ (Rect.block (s := S16384x4096) S256x512.size (cc0_transform_3 i) (hinb0_3 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_call0_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.KBBody.lean ====
/-
  The kernel body of the fused linear + SiLU program at one grid point, and what the pipeline hands it.
  At a point the body reads four [256, 1024] quarter-blocks of the activation rows, the [2048, 4096] block of the
  weights through its four [2048, 1024] column quarters, and the [1, 2048] bias block, and stores ONE [256, 2048]
  block: the sum of the four quarter products, plus the bias row, times its logistic. Every input window's staging
  buffer holds that window's block of its array at every point (fetched there or kept from the point before, when the
  block index has not moved); the output buffer ends at the single store's value, a function of the input blocks only.
  Stated for any float instance.
-/
import proofs.«131315_g2000205920323473_pallasbulk_1242_9_alg».proof.Proof.Gen.Kernel.Launch
import proofs.«131315_g2000205920323473_pallasbulk_1242_9_alg».proof.Proof.Gen.Kernel.Skeleton
import proofs.«131315_g2000205920323473_pallasbulk_1242_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S256x1024 := Rect.unit (s := S256x1024) ![0, 0] S256x1024.size inb_S256x1024_S256x1024_0_0
abbrev rW0 : Rect S2048x4096 := Rect.unit (s := S2048x4096) ![0, 0] S2048x1024.size inb_S2048x4096_S2048x1024_0_0
abbrev rW1 : Rect S2048x4096 := Rect.unit (s := S2048x4096) ![0, 1024] S2048x1024.size inb_S2048x4096_S2048x1024_0_1024
abbrev rW2 : Rect S2048x4096 := Rect.unit (s := S2048x4096) ![0, 2048] S2048x1024.size inb_S2048x4096_S2048x1024_0_2048
abbrev rW3 : Rect S2048x4096 := Rect.unit (s := S2048x4096) ![0, 3072] S2048x1024.size inb_S2048x4096_S2048x1024_0_3072
abbrev rB : Rect S1x2048 := Rect.unit (s := S1x2048) ![0, 0] S1x2048.size inb_S1x2048_S1x2048_0_0
abbrev rO : Rect S256x2048 := Rect.unit (s := S256x2048) ![0, 0] S256x2048.size inb_S256x2048_S256x2048_0_0

/-! ## What the body leaves in the output window's buffer -/

/-- The output buffer after the body, from the input windows' blocks: its one store, over the whole buffer. -/
def out6 (x0 x1 x2 x3 : Vec F S256x1024 .f32) (x4 : Vec F S2048x4096 .bf16) (x5 : Vec F S1x2048 .f32) : Vec F S256x2048 .f32 :=
  View.canon [⟨rO, k0_pay1 (View.ld x0 rX) (View.ld x4 rW0) (View.ld x1 rX) (View.ld x4 rW1) (View.ld x2 rX) (View.ld x4 rW2)
    (View.ld x3 rX) (View.ld x4 rW3) (View.ld x5 rB)⟩]

/-- The store covers the buffer. -/
theorem cover6 (p0 : Vec F S256x2048 .f32) (y : S256x2048.Idx) :
    ∃ pc ∈ ([⟨rO, p0⟩] : List (View.Piece (Elt F) S256x2048 .f32)), y ∈ pc.1.set :=
  View.cover_of_tiled [⟨rO, p0⟩] S256x2048.size (by rfl) y

/-! ## The body's triple -/

set_option maxHeartbeats 4000000 in
/-- The body on whole staging memrefs, the inputs' at read contents and the output's at anything, runs to the
    continuation holding the inputs' as they were and the output's at `out6` of the inputs'. -/
theorem sound_kernel (c : Dev nD) (E : Set ℕ) (i : grid0.Coords)
    (arg2 : Memref sig .tc .vmem S256x1024 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1024 .f32) (harg5 : arg5.IsWhole)
    (arg6 : Memref sig .tc .vmem S2048x4096 .bf16) (harg6 : arg6.IsWhole) (arg7 : Memref sig .tc .vmem S1x2048 .f32) (harg7 : arg7.IsWhole)
    (arg8 : Memref sig .tc .vmem S256x2048 .f32) (harg8 : arg8.IsWhole)
    (x0 x1 x2 x3 : Vec F S256x1024 .f32) (x4 : Vec F S2048x4096 .bf16) (x5 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out6 x0 x1 x2 x3 x4 x5)) -∗ K ⟨⟩))
      ⊢ wp frame (wpE (defs₀ (F := F)) Variants.none c none) E
          (cc0__linear_silu_kernel i arg2 harg2 arg3 harg3 arg4 harg4 arg5 harg5 arg6 harg6 arg7 harg7 arg8 harg8) K := by
  simp only [cc0__linear_silu_kernel_eq_skeleton]; unfold cc0__linear_silu_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6 _)

end Cert.Kernel.Body

end
-- ==== Proof.KBData.lean ====
/-
  The proof data of the one pipeline, and the body obligation at a generic grid point.
  The arrays are the region-entry contents. After the body at a point each input window's buffer holds its block and
  the output's holds the store's value of the input blocks. The activations' array is handed to four windows at
  once, each reading its own column quarter: the four hold it at four disjoint shares that compose to the whole.
-/
import proofs.«131315_g2000205920323473_pallasbulk_1242_9_alg».proof.Proof.KBBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four quarters of the whole share. -/
abbrev qLL : PosShare TreeShare := fullShare.left.left
abbrev qLR : PosShare TreeShare := fullShare.left.right
abbrev qRL : PosShare TreeShare := fullShare.right.left
abbrev qRR : PosShare TreeShare := fullShare.right.right

/-- The proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := Pipeline.ΦA spec0 c
  q w := match w with
    | ⟨0, _⟩ => qLL
    | ⟨1, _⟩ => qLR
    | ⟨2, _⟩ => qRL
    | ⟨3, _⟩ => qRR
    | ⟨4, _⟩ => fullShare
    | ⟨5, _⟩ => fullShare
    | ⟨6, _⟩ => fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) :
    (dat V c).after 6 t = out6 (iblk V c 0 t) (iblk V c 1 t) (iblk V c 2 t) (iblk V c 3 t) (iblk V c 4 t) (iblk V c 5 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W0, bigSep_W0]
  exact sound_body V c t

end Cert.Kernel.Body

end
-- ==== Proof.KBRun.lean ====
/-
  The run of the whole program: the host operations before the region (two reshapes and the change of the weights'
  format), the region, the reshape after it — as three segments over one thread state, "every unscoped buffer of the
  core at the boundary's contents, the generator register at some state, nothing owed".
  The region takes the buffers behind its windows' arrays out of that state and puts them back at its exit. The
  activations' array stands behind four input windows: at entry its points-to is cut into four disjoint quarter
  shares, one per window, and at exit the four — still at the entry contents, an input array is never written — are
  joined again. The output array comes back at what the write-backs leave. The conclusion names the final contents
  of EVERY unscoped buffer; the frame claim and the value claim both read it.
-/
import proofs.«131315_g2000205920323473_pallasbulk_1242_9_alg».proof.Proof.KBData

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

/-! ## The windows' arrays and the buffers behind them -/

section Shares

variable (V : (c : Dev nD) → (b : Ref sig .tc) → Buf (Elt F) ((c : Thread nD τ).loc b))

/-- Each window's array is a whole buffer: the arrays, each at its window's share. -/
theorem arrays_eq' (c : Dev nD) (A : (w : Fin cfg0.W) → Buf (Elt F) ((cfg0.win w).arr.view.loc (c : Thread nD τ))) :
    ((dat V c).arrays A : sProp 𝕄)
      = bigSep Finset.univ fun w : Fin 7 => (((c : Thread nD τ).loc (Pipeline.arrRef spec0 w)) ↦{(dat V c).share w} A w : sProp 𝕄) := by
  unfold Dat.arrays
  exact bigSep_congr fun w _ => by rw [(arr_whole0 w).set_eq_univ]

theorem share0 (c : Dev nD) : (dat V c).share 0 = qLL := rfl
theorem share1 (c : Dev nD) : (dat V c).share 1 = qLR := rfl
theorem share2 (c : Dev nD) : (dat V c).share 2 = qRL := rfl
theorem share3 (c : Dev nD) : (dat V c).share 3 = qRR := rfl
theorem share4 (c : Dev nD) : (dat V c).share 4 = fullShare := rfl
theorem share5 (c : Dev nD) : (dat V c).share 5 = fullShare := rfl
theorem share6 (c : Dev nD) : (dat V c).share 6 = fullShare := rfl

/-- The pipeline's arrays, window by window: the activations' buffer four times at the four quarter shares, the
    weights', the bias's and the result's buffers at the whole share. -/
theorem arrays_chain (c : Dev nD) (A : (w : Fin cfg0.W) → Buf (Elt F) ((cfg0.win w).arr.view.loc (c : Thread nD τ))) :
    ((dat V c).arrays A : sProp 𝕄) = iprop(
      ((((c : Thread nD τ).loc main_call0_v0) ↦{qLL} A 0) ∗ (((c : Thread nD τ).loc main_call0_v0) ↦{qLR} A 1)
      ∗ (((c : Thread nD τ).loc main_call0_v0) ↦{qRL} A 2) ∗ (((c : Thread nD τ).loc main_call0_v0) ↦{qRR} A 3)
      ∗ (((c : Thread nD τ).loc main_call0_v2) ↦{fullShare} A 4) ∗ (((c : Thread nD τ).loc main_call0_v1) ↦{fullShare} A 5)
      ∗ (((c : Thread nD τ).loc main_call0_v3) ↦{fullShare} A 6))) := by
  rw [arrays_eq', bigSep_W0, share0, share1, share2, share3, share4, share5, share6]

/-- The distinct buffers behind the arrays, one by one. -/
theorem arrBufs_chain (c : Dev nD) (V' : (b : Ref sig .tc) → Buf (Elt F) ((c : Thread nD τ).loc b)) :
    (Pipeline.arrBufs (Ix := Unit) (Name := ℕ) (U := UR sig nD τ) (Lvl := ℕ) spec0 c V' : sProp 𝕄) = iprop(
      ((((c : Thread nD τ).loc main_call0_v0) ↦{fullShare} V' main_call0_v0) ∗ (((c : Thread nD τ).loc main_call0_v2) ↦{fullShare} V' main_call0_v2)
      ∗ (((c : Thread nD τ).loc main_call0_v1) ↦{fullShare} V' main_call0_v1) ∗ (((c : Thread nD τ).loc main_call0_v3) ↦{fullShare} V' main_call0_v3))) := by
  unfold Pipeline.arrBufs
  rw [bigSep_eq_bigSepL_of_eq [main_call0_v0, main_call0_v2, main_call0_v1, main_call0_v3] (by decide) (by decide)]
  rfl

/-- ENTRY: the buffers behind the arrays, whole, make the pipeline's arrays at the same contents — the activations'
    buffer cut into its four quarter shares. -/
theorem arrays_split (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊢ (dat V c).arrays fun w => V' (Pipeline.arrRef spec0 w) := by
  rw [arrays_chain, arrBufs_chain]
  iintro ⟨H0, H2, H1, H3⟩
  ihave HLR := (pointsTo_share (PosShare.mem_left_op_right fullShare)).1 $$ H0
  icases HLR with ⟨HL, HR⟩
  ihave HLs := (pointsTo_share (PosShare.mem_left_op_right fullShare.left)).1 $$ HL
  icases HLs with ⟨HLL, HLR⟩
  ihave HRs := (pointsTo_share (PosShare.mem_left_op_right fullShare.right)).1 $$ HR
  icases HRs with ⟨HRL, HRR⟩
  isplitl [HLL]; · iexact HLL
  isplitl [HLR]; · iexact HLR
  isplitl [HRL]; · iexact HRL
  isplitl [HRR]; · iexact HRR
  isplitl [H2]; · iexact H2
  isplitl [H1]; · iexact H1
  iexact H3

/-- EXIT: the pipeline's arrays at contents that agree, window by window, with a valuation are the buffers behind
    them, whole, at that valuation — the four quarter shares of the activations' buffer joined. -/
theorem arrays_join (c : Dev nD) (A : (w : Fin cfg0.W) → Buf (Elt F) ((cfg0.win w).arr.view.loc (c : Thread nD τ)))
    (V' : (b : Ref sig .tc) → Buf (Elt F) ((c : Thread nD τ).loc b)) (hA : ∀ w, A w = V' (Pipeline.arrRef spec0 w)) :
    ((dat V c).arrays A : sProp 𝕄) ⊢ Pipeline.arrBufs (Ix := Unit) (Name := ℕ) (U := UR sig nD τ) (Lvl := ℕ) spec0 c V' := by
  rw [arrays_chain, arrBufs_chain, hA 0, hA 1, hA 2, hA 3, hA 4, hA 5, hA 6]
  iintro ⟨HLL, HLR, HRL, HRR, H2, H1, H3⟩
  isplitl [HLL HLR HRL HRR]
  · iapply (pointsTo_share (PosShare.mem_left_op_right fullShare)).2
    isplitl [HLL HLR]
    · iapply (pointsTo_share (PosShare.mem_left_op_right fullShare.left)).2
      isplitl [HLL] <;> iassumption
    · iapply (pointsTo_share (PosShare.mem_left_op_right fullShare.right)).2
      isplitl [HRL] <;> iassumption
  isplitl [H2]; · iexact H2
  isplitl [H1]; · iexact H1
  iexact H3

end Shares

/-! ## The buffer contents at each segment boundary -/

section Run

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the region (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: the result's buffer at what the write-backs leave, every other buffer as entered. -/
def W2 (c : Dev nD) : Valuation τ sig (Elt F) :=
  Function.update (W1 m ρ c) (Proc.devRef .tc main_call0_v3) ((dat (V1 m ρ) c).arrAt 6 cfg0.N)
abbrev V2 : (c : Dev nD) → (b : Ref sig .tc) → Buf (Elt F) ((c : Thread nD τ).loc b) := fun c b => W2 m ρ c b

theorem W2_out (c : Dev nD) : W2 m ρ c (Proc.devRef .tc main_call0_v3) = (dat (V1 m ρ) c).arrAt 6 cfg0.N := by
  unfold W2; exact Function.update_self ..
theorem W2_of_ne (c : Dev nD) (b : Ref sig .tc) (hb : b ≠ main_call0_v3) :
    W2 m ρ c (Proc.devRef .tc b) = W1 m ρ c (Proc.devRef .tc b) := by
  unfold W2; exact Function.update_of_ne (StableHlo.devRef_ne_of_ne hb) ..

/-- At the exit each array holds what the pipeline leaves: an input's its entry contents, the output's the write-backs'. -/
theorem hF (c : Dev nD) (w : Fin cfg0.W) : (dat (V1 m ρ) c).arrAt w cfg0.N = V2 m ρ c (Pipeline.arrRef spec0 w) :=
  match w with
  | ⟨0, _⟩ => ((dat (V1 m ρ) c).arrAt_in 0 rfl _).trans ((A_eq (V1 m ρ) c 0).trans (W2_of_ne m ρ c main_call0_v0 (by decide)).symm)
  | ⟨1, _⟩ => ((dat (V1 m ρ) c).arrAt_in 1 rfl _).trans ((A_eq (V1 m ρ) c 1).trans (W2_of_ne m ρ c main_call0_v0 (by decide)).symm)
  | ⟨2, _⟩ => ((dat (V1 m ρ) c).arrAt_in 2 rfl _).trans ((A_eq (V1 m ρ) c 2).trans (W2_of_ne m ρ c main_call0_v0 (by decide)).symm)
  | ⟨3, _⟩ => ((dat (V1 m ρ) c).arrAt_in 3 rfl _).trans ((A_eq (V1 m ρ) c 3).trans (W2_of_ne m ρ c main_call0_v0 (by decide)).symm)
  | ⟨4, _⟩ => ((dat (V1 m ρ) c).arrAt_in 4 rfl _).trans ((A_eq (V1 m ρ) c 4).trans (W2_of_ne m ρ c main_call0_v2 (by decide)).symm)
  | ⟨5, _⟩ => ((dat (V1 m ρ) c).arrAt_in 5 rfl _).trans ((A_eq (V1 m ρ) c 5).trans (W2_of_ne m ρ c main_call0_v1 (by decide)).symm)
  | ⟨6, _⟩ => (W2_out m ρ c).symm
theorem hrest (c : Dev nD) : ∀ b, b ∉ Finset.univ.image (Pipeline.arrRef spec0) → V2 m ρ c b = V1 m ρ c b :=
  fun b hb => W2_of_ne m ρ c b fun e => hb (e ▸ (by decide : main_call0_v3 ∈ Finset.univ.image (Pipeline.arrRef spec0)))

/-- After the reshape that follows the region: the final contents. -/
abbrev W3 : Dev nD → Valuation τ sig (Elt F) := fun c => StableHlo.after hostOps1 (W2 m ρ c)

/-! ### The arguments end as launched: no host operation and no write-back writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.unary_writes, StableHlo.reshape_writes, Finset.mem_singleton]
          exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-- The core's unscoped buffers are the buffers behind the arrays and the rest, at any valuation. -/
theorem ub_split (c : Dev nD) (V' : (b : Ref sig .tc) → Buf (Elt F) ((c : Thread nD τ).loc b)) :
    (unscopedBufs c V' : sProp 𝕄) = iprop((Pipeline.arrBufs spec0 c V' : sProp 𝕄) ∗ Pipeline.unscopedRest spec0 c V') :=
  Pipeline.unscopedBufs_split₀ cfgs 0 winFacts₀0.arr_unscoped c V'

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) := by
      rw [ub_split]
      exact sep_mono (arrays_split (V1 m ρ) c (V1 m ρ c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [ub_split]
      refine sep_mono (arrays_join (V1 m ρ) c _ (V2 m ρ c) (hF m ρ c)) (Entails.of_eq ?_)
      unfold Pipeline.unscopedRest
      exact bigSep_congr fun b hb => by rw [hrest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds, at every unscoped buffer of every core, the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Run

end Cert.Kernel.Run

end
-- ==== Proof.KIBody.lean ====
/-
  The kernel body of the fused linear + SiLU program at one grid point, and what the pipeline hands it.
  At a point the body reads four [256, 1024] quarter-blocks of the activation rows, the [2048, 4096] block of the
  weights through its four [2048, 1024] column quarters, and the [1, 2048] bias block, and stores ONE [256, 2048]
  block: the sum of the four quarter products, plus the bias row, times its logistic. Every input window's staging
  buffer holds that window's block of its array at every point (fetched there or kept from the point before, when the
  block index has not moved); the output buffer ends at the single store's value, a function of the input blocks only.
  Stated for any float instance.
-/
import proofs.«131315_g2000205920323473_pallasbulk_1242_9_alg».proof.Proof.Gen.KernelIdeal.Launch
import proofs.«131315_g2000205920323473_pallasbulk_1242_9_alg».proof.Proof.Gen.KernelIdeal.Skeleton
import proofs.«131315_g2000205920323473_pallasbulk_1242_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S256x1024 := Rect.unit (s := S256x1024) ![0, 0] S256x1024.size inb_S256x1024_S256x1024_0_0
abbrev rW0 : Rect S2048x4096 := Rect.unit (s := S2048x4096) ![0, 0] S2048x1024.size inb_S2048x4096_S2048x1024_0_0
abbrev rW1 : Rect S2048x4096 := Rect.unit (s := S2048x4096) ![0, 1024] S2048x1024.size inb_S2048x4096_S2048x1024_0_1024
abbrev rW2 : Rect S2048x4096 := Rect.unit (s := S2048x4096) ![0, 2048] S2048x1024.size inb_S2048x4096_S2048x1024_0_2048
abbrev rW3 : Rect S2048x4096 := Rect.unit (s := S2048x4096) ![0, 3072] S2048x1024.size inb_S2048x4096_S2048x1024_0_3072
abbrev rB : Rect S1x2048 := Rect.unit (s := S1x2048) ![0, 0] S1x2048.size inb_S1x2048_S1x2048_0_0
abbrev rO : Rect S256x2048 := Rect.unit (s := S256x2048) ![0, 0] S256x2048.size inb_S256x2048_S256x2048_0_0

/-! ## What the body leaves in the output window's buffer -/

/-- The output buffer after the body, from the input windows' blocks: its one store, over the whole buffer. -/
def out6 (x0 x1 x2 x3 : Vec F S256x1024 .f32) (x4 : Vec F S2048x4096 .bf16) (x5 : Vec F S1x2048 .f32) : Vec F S256x2048 .f32 :=
  View.canon [⟨rO, k0_pay1 (View.ld x0 rX) (View.ld x4 rW0) (View.ld x1 rX) (View.ld x4 rW1) (View.ld x2 rX) (View.ld x4 rW2)
    (View.ld x3 rX) (View.ld x4 rW3) (View.ld x5 rB)⟩]

/-- The store covers the buffer. -/
theorem cover6 (p0 : Vec F S256x2048 .f32) (y : S256x2048.Idx) :
    ∃ pc ∈ ([⟨rO, p0⟩] : List (View.Piece (Elt F) S256x2048 .f32)), y ∈ pc.1.set :=
  View.cover_of_tiled [⟨rO, p0⟩] S256x2048.size (by rfl) y

/-! ## The body's triple -/

set_option maxHeartbeats 4000000 in
/-- The body on whole staging memrefs, the inputs' at read contents and the output's at anything, runs to the
    continuation holding the inputs' as they were and the output's at `out6` of the inputs'. -/
theorem sound_kernel (c : Dev nD) (E : Set ℕ) (i : grid0.Coords)
    (arg2 : Memref sig .tc .vmem S256x1024 .f32) (harg2 : arg2.IsWhole) (arg3 : Memref sig .tc .vmem S256x1024 .f32) (harg3 : arg3.IsWhole)
    (arg4 : Memref sig .tc .vmem S256x1024 .f32) (harg4 : arg4.IsWhole) (arg5 : Memref sig .tc .vmem S256x1024 .f32) (harg5 : arg5.IsWhole)
    (arg6 : Memref sig .tc .vmem S2048x4096 .bf16) (harg6 : arg6.IsWhole) (arg7 : Memref sig .tc .vmem S1x2048 .f32) (harg7 : arg7.IsWhole)
    (arg8 : Memref sig .tc .vmem S256x2048 .f32) (harg8 : arg8.IsWhole)
    (x0 x1 x2 x3 : Vec F S256x1024 .f32) (x4 : Vec F S2048x4096 .bf16) (x5 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out6 x0 x1 x2 x3 x4 x5)) -∗ K ⟨⟩))
      ⊢ wp frame (wpE (defs₀ (F := F)) Variants.none c none) E
          (cc0__linear_silu_kernel i arg2 harg2 arg3 harg3 arg4 harg4 arg5 harg5 arg6 harg6 arg7 harg7 arg8 harg8) K := by
  simp only [cc0__linear_silu_kernel_eq_skeleton]; unfold cc0__linear_silu_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover6 _)

end Cert.KernelIdeal.Body

end
-- ==== Proof.KIData.lean ====
/-
  The proof data of the one pipeline, and the body obligation at a generic grid point.
  The arrays are the region-entry contents. After the body at a point each input window's buffer holds its block and
  the output's holds the store's value of the input blocks. The activations' array is handed to four windows at
  once, each reading its own column quarter: the four hold it at four disjoint shares that compose to the whole.
-/
import proofs.«131315_g2000205920323473_pallasbulk_1242_9_alg».proof.Proof.KIBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four quarters of the whole share. -/
abbrev qLL : PosShare TreeShare := fullShare.left.left
abbrev qLR : PosShare TreeShare := fullShare.left.right
abbrev qRL : PosShare TreeShare := fullShare.right.left
abbrev qRR : PosShare TreeShare := fullShare.right.right

/-- The proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := Pipeline.ΦA spec0 c
  q w := match w with
    | ⟨0, _⟩ => qLL
    | ⟨1, _⟩ => qLR
    | ⟨2, _⟩ => qRL
    | ⟨3, _⟩ => qRR
    | ⟨4, _⟩ => fullShare
    | ⟨5, _⟩ => fullShare
    | ⟨6, _⟩ => fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) :
    (dat V c).after 6 t = out6 (iblk V c 0 t) (iblk V c 1 t) (iblk V c 2 t) (iblk V c 3 t) (iblk V c 4 t) (iblk V c 5 t) := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W0, bigSep_W0]
  exact sound_body V c t

end Cert.KernelIdeal.Body

end
-- ==== Proof.KIRun.lean ====
/-
  The run of the whole program: the host operations before the region (two reshapes and the change of the weights'
  format), the region, the reshape after it — as three segments over one thread state, "every unscoped buffer of the
  core at the boundary's contents, the generator register at some state, nothing owed".
  The region takes the buffers behind its windows' arrays out of that state and puts them back at its exit. The
  activations' array stands behind four input windows: at entry its points-to is cut into four disjoint quarter
  shares, one per window, and at exit the four — still at the entry contents, an input array is never written — are
  joined again. The output array comes back at what the write-backs leave. The conclusion names the final contents
  of EVERY unscoped buffer; the frame claim and the value claim both read it.
-/
import proofs.«131315_g2000205920323473_pallasbulk_1242_9_alg».proof.Proof.KIData

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

/-! ## The windows' arrays and the buffers behind them -/

section Shares

variable (V : (c : Dev nD) → (b : Ref sig .tc) → Buf (Elt F) ((c : Thread nD τ).loc b))

/-- Each window's array is a whole buffer: the arrays, each at its window's share. -/
theorem arrays_eq' (c : Dev nD) (A : (w : Fin cfg0.W) → Buf (Elt F) ((cfg0.win w).arr.view.loc (c : Thread nD τ))) :
    ((dat V c).arrays A : sProp 𝕄)
      = bigSep Finset.univ fun w : Fin 7 => (((c : Thread nD τ).loc (Pipeline.arrRef spec0 w)) ↦{(dat V c).share w} A w : sProp 𝕄) := by
  unfold Dat.arrays
  exact bigSep_congr fun w _ => by rw [(arr_whole0 w).set_eq_univ]

theorem share0 (c : Dev nD) : (dat V c).share 0 = qLL := rfl
theorem share1 (c : Dev nD) : (dat V c).share 1 = qLR := rfl
theorem share2 (c : Dev nD) : (dat V c).share 2 = qRL := rfl
theorem share3 (c : Dev nD) : (dat V c).share 3 = qRR := rfl
theorem share4 (c : Dev nD) : (dat V c).share 4 = fullShare := rfl
theorem share5 (c : Dev nD) : (dat V c).share 5 = fullShare := rfl
theorem share6 (c : Dev nD) : (dat V c).share 6 = fullShare := rfl

/-- The pipeline's arrays, window by window: the activations' buffer four times at the four quarter shares, the
    weights', the bias's and the result's buffers at the whole share. -/
theorem arrays_chain (c : Dev nD) (A : (w : Fin cfg0.W) → Buf (Elt F) ((cfg0.win w).arr.view.loc (c : Thread nD τ))) :
    ((dat V c).arrays A : sProp 𝕄) = iprop(
      ((((c : Thread nD τ).loc main_call0_v0) ↦{qLL} A 0) ∗ (((c : Thread nD τ).loc main_call0_v0) ↦{qLR} A 1)
      ∗ (((c : Thread nD τ).loc main_call0_v0) ↦{qRL} A 2) ∗ (((c : Thread nD τ).loc main_call0_v0) ↦{qRR} A 3)
      ∗ (((c : Thread nD τ).loc main_call0_v2) ↦{fullShare} A 4) ∗ (((c : Thread nD τ).loc main_call0_v1) ↦{fullShare} A 5)
      ∗ (((c : Thread nD τ).loc main_call0_v3) ↦{fullShare} A 6))) := by
  rw [arrays_eq', bigSep_W0, share0, share1, share2, share3, share4, share5, share6]

/-- The distinct buffers behind the arrays, one by one. -/
theorem arrBufs_chain (c : Dev nD) (V' : (b : Ref sig .tc) → Buf (Elt F) ((c : Thread nD τ).loc b)) :
    (Pipeline.arrBufs (Ix := Unit) (Name := ℕ) (U := UR sig nD τ) (Lvl := ℕ) spec0 c V' : sProp 𝕄) = iprop(
      ((((c : Thread nD τ).loc main_call0_v0) ↦{fullShare} V' main_call0_v0) ∗ (((c : Thread nD τ).loc main_call0_v2) ↦{fullShare} V' main_call0_v2)
      ∗ (((c : Thread nD τ).loc main_call0_v1) ↦{fullShare} V' main_call0_v1) ∗ (((c : Thread nD τ).loc main_call0_v3) ↦{fullShare} V' main_call0_v3))) := by
  unfold Pipeline.arrBufs
  rw [bigSep_eq_bigSepL_of_eq [main_call0_v0, main_call0_v2, main_call0_v1, main_call0_v3] (by decide) (by decide)]
  rfl

/-- ENTRY: the buffers behind the arrays, whole, make the pipeline's arrays at the same contents — the activations'
    buffer cut into its four quarter shares. -/
theorem arrays_split (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊢ (dat V c).arrays fun w => V' (Pipeline.arrRef spec0 w) := by
  rw [arrays_chain, arrBufs_chain]
  iintro ⟨H0, H2, H1, H3⟩
  ihave HLR := (pointsTo_share (PosShare.mem_left_op_right fullShare)).1 $$ H0
  icases HLR with ⟨HL, HR⟩
  ihave HLs := (pointsTo_share (PosShare.mem_left_op_right fullShare.left)).1 $$ HL
  icases HLs with ⟨HLL, HLR⟩
  ihave HRs := (pointsTo_share (PosShare.mem_left_op_right fullShare.right)).1 $$ HR
  icases HRs with ⟨HRL, HRR⟩
  isplitl [HLL]; · iexact HLL
  isplitl [HLR]; · iexact HLR
  isplitl [HRL]; · iexact HRL
  isplitl [HRR]; · iexact HRR
  isplitl [H2]; · iexact H2
  isplitl [H1]; · iexact H1
  iexact H3

/-- EXIT: the pipeline's arrays at contents that agree, window by window, with a valuation are the buffers behind
    them, whole, at that valuation — the four quarter shares of the activations' buffer joined. -/
theorem arrays_join (c : Dev nD) (A : (w : Fin cfg0.W) → Buf (Elt F) ((cfg0.win w).arr.view.loc (c : Thread nD τ)))
    (V' : (b : Ref sig .tc) → Buf (Elt F) ((c : Thread nD τ).loc b)) (hA : ∀ w, A w = V' (Pipeline.arrRef spec0 w)) :
    ((dat V c).arrays A : sProp 𝕄) ⊢ Pipeline.arrBufs (Ix := Unit) (Name := ℕ) (U := UR sig nD τ) (Lvl := ℕ) spec0 c V' := by
  rw [arrays_chain, arrBufs_chain, hA 0, hA 1, hA 2, hA 3, hA 4, hA 5, hA 6]
  iintro ⟨HLL, HLR, HRL, HRR, H2, H1, H3⟩
  isplitl [HLL HLR HRL HRR]
  · iapply (pointsTo_share (PosShare.mem_left_op_right fullShare)).2
    isplitl [HLL HLR]
    · iapply (pointsTo_share (PosShare.mem_left_op_right fullShare.left)).2
      isplitl [HLL] <;> iassumption
    · iapply (pointsTo_share (PosShare.mem_left_op_right fullShare.right)).2
      isplitl [HRL] <;> iassumption
  isplitl [H2]; · iexact H2
  isplitl [H1]; · iexact H1
  iexact H3

end Shares

/-! ## The buffer contents at each segment boundary -/

section Run

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the region (the region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: the result's buffer at what the write-backs leave, every other buffer as entered. -/
def W2 (c : Dev nD) : Valuation τ sig (Elt F) :=
  Function.update (W1 m ρ c) (Proc.devRef .tc main_call0_v3) ((dat (V1 m ρ) c).arrAt 6 cfg0.N)
abbrev V2 : (c : Dev nD) → (b : Ref sig .tc) → Buf (Elt F) ((c : Thread nD τ).loc b) := fun c b => W2 m ρ c b

theorem W2_out (c : Dev nD) : W2 m ρ c (Proc.devRef .tc main_call0_v3) = (dat (V1 m ρ) c).arrAt 6 cfg0.N := by
  unfold W2; exact Function.update_self ..
theorem W2_of_ne (c : Dev nD) (b : Ref sig .tc) (hb : b ≠ main_call0_v3) :
    W2 m ρ c (Proc.devRef .tc b) = W1 m ρ c (Proc.devRef .tc b) := by
  unfold W2; exact Function.update_of_ne (StableHlo.devRef_ne_of_ne hb) ..

/-- At the exit each array holds what the pipeline leaves: an input's its entry contents, the output's the write-backs'. -/
theorem hF (c : Dev nD) (w : Fin cfg0.W) : (dat (V1 m ρ) c).arrAt w cfg0.N = V2 m ρ c (Pipeline.arrRef spec0 w) :=
  match w with
  | ⟨0, _⟩ => ((dat (V1 m ρ) c).arrAt_in 0 rfl _).trans ((A_eq (V1 m ρ) c 0).trans (W2_of_ne m ρ c main_call0_v0 (by decide)).symm)
  | ⟨1, _⟩ => ((dat (V1 m ρ) c).arrAt_in 1 rfl _).trans ((A_eq (V1 m ρ) c 1).trans (W2_of_ne m ρ c main_call0_v0 (by decide)).symm)
  | ⟨2, _⟩ => ((dat (V1 m ρ) c).arrAt_in 2 rfl _).trans ((A_eq (V1 m ρ) c 2).trans (W2_of_ne m ρ c main_call0_v0 (by decide)).symm)
  | ⟨3, _⟩ => ((dat (V1 m ρ) c).arrAt_in 3 rfl _).trans ((A_eq (V1 m ρ) c 3).trans (W2_of_ne m ρ c main_call0_v0 (by decide)).symm)
  | ⟨4, _⟩ => ((dat (V1 m ρ) c).arrAt_in 4 rfl _).trans ((A_eq (V1 m ρ) c 4).trans (W2_of_ne m ρ c main_call0_v2 (by decide)).symm)
  | ⟨5, _⟩ => ((dat (V1 m ρ) c).arrAt_in 5 rfl _).trans ((A_eq (V1 m ρ) c 5).trans (W2_of_ne m ρ c main_call0_v1 (by decide)).symm)
  | ⟨6, _⟩ => (W2_out m ρ c).symm
theorem hrest (c : Dev nD) : ∀ b, b ∉ Finset.univ.image (Pipeline.arrRef spec0) → V2 m ρ c b = V1 m ρ c b :=
  fun b hb => W2_of_ne m ρ c b fun e => hb (e ▸ (by decide : main_call0_v3 ∈ Finset.univ.image (Pipeline.arrRef spec0)))

/-- After the reshape that follows the region: the final contents. -/
abbrev W3 : Dev nD → Valuation τ sig (Elt F) := fun c => StableHlo.after hostOps1 (W2 m ρ c)

/-! ### The arguments end as launched: no host operation and no write-back writes one -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.unary_writes, StableHlo.reshape_writes, Finset.mem_singleton]
          exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-- The core's unscoped buffers are the buffers behind the arrays and the rest, at any valuation. -/
theorem ub_split (c : Dev nD) (V' : (b : Ref sig .tc) → Buf (Elt F) ((c : Thread nD τ).loc b)) :
    (unscopedBufs c V' : sProp 𝕄) = iprop((Pipeline.arrBufs spec0 c V' : sProp 𝕄) ∗ Pipeline.unscopedRest spec0 c V') :=
  Pipeline.unscopedBufs_split₀ cfgs 0 winFacts₀0.arr_unscoped c V'

/-! ## The region as a segment -/

set_option backward.isDefEq.respectTransparency.types false in
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) := by
      rw [ub_split]
      exact sep_mono (arrays_split (V1 m ρ) c (V1 m ρ c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [ub_split]
      refine sep_mono (arrays_join (V1 m ρ) c _ (V2 m ρ c) (hF m ρ c)) (Entails.of_eq ?_)
      unfold Pipeline.unscopedRest
      exact bigSep_congr fun b hb => by rw [hrest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds, at every unscoped buffer of every core, the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Run

end Cert.KernelIdeal.Run

end
-- ==== Proof.KVBlocks.lean ====
/-
  Where the pipeline's blocks sit in the arrays the region finds (generic in the float instance and in the arrays).
  The grid is [2, 64] with the last axis fastest: point t has column half j = t / 64 and row block i = t % 64. At t
    windows 0 … 3 are the four column quarters q of row block i of the activations as a [16384, 4096] matrix:
                 entry (r, kk) of window q is X(256 i + r, 1024 q + kk);
    window 4 is row block j of the weights [4096, 4096], all 4096 columns: entry (n, K) is W(2048 j + n, K);
    window 5 is block (0, j) of the bias row [1, 4096]:                    entry (0, n) is B(0, 2048 j + n);
    window 6 is block (i, j) of the result matrix.
-/
import proofs.«131315_g2000205920323473_pallasbulk_1242_9_alg».proof.Proof.KIData
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Body

variable {F : FTy → Type} [FloatOps F]
variable (V : (c : Dev nD) → (b : Ref sig .tc) → Buf (Elt F) ((c : Thread nD τ).loc b))

/-- The printed index maps in closed form, decided over the grid's 128 points. -/
theorem idx_facts0 : ∀ t : Fin cfg0.N, win0_0.index t (0 : Fin 2) = t.val % 64 ∧ win0_0.index t (1 : Fin 2) = 0 ∧ True :=
  (by decide +kernel : ∀ t : Fin grid0.N, _)
theorem idx_facts1 : ∀ t : Fin cfg0.N, win0_1.index t (0 : Fin 2) = t.val % 64 ∧ win0_1.index t (1 : Fin 2) = 1 ∧ True :=
  (by decide +kernel : ∀ t : Fin grid0.N, _)
theorem idx_facts2 : ∀ t : Fin cfg0.N, win0_2.index t (0 : Fin 2) = t.val % 64 ∧ win0_2.index t (1 : Fin 2) = 2 ∧ True :=
  (by decide +kernel : ∀ t : Fin grid0.N, _)
theorem idx_facts3 : ∀ t : Fin cfg0.N, win0_3.index t (0 : Fin 2) = t.val % 64 ∧ win0_3.index t (1 : Fin 2) = 3 ∧ True :=
  (by decide +kernel : ∀ t : Fin grid0.N, _)
theorem idx_facts4 : ∀ t : Fin cfg0.N, win0_4.index t (0 : Fin 2) = t.val / 64 ∧ win0_4.index t (1 : Fin 2) = 0 :=
  (by decide +kernel : ∀ t : Fin grid0.N, _)
theorem idx_facts5 : ∀ t : Fin cfg0.N, win0_5.index t (0 : Fin 2) = 0 ∧ win0_5.index t (1 : Fin 2) = t.val / 64 :=
  (by decide +kernel : ∀ t : Fin grid0.N, _)
theorem idx_facts6 : ∀ t : Fin cfg0.N, win0_6.index t (0 : Fin 2) = t.val % 64 ∧ win0_6.index t (1 : Fin 2) = t.val / 64 :=
  (by decide +kernel : ∀ t : Fin grid0.N, _)

/-- Window 0 at point t, entry (r, kk): the activations at row 256 i + r, contraction coordinate kk. -/
theorem iblk0_apply (c : Dev nD) (t : Fin cfg0.N) (r : Fin 256) (kk : Fin 1024) (R : Fin 16384) (K : Fin 4096)
    (hR : R.val = 256 * (t.val % 64) + r.val) (hK : K.val = 0 + kk.val) :
    (iblk V c 0 t : Vec F S256x1024 .f32) (ix2 r kk) = V c main_call0_v0 (ix2 R K) := by
  obtain ⟨e0, e1, -⟩ := idx_facts0 t
  unfold iblk
  rw [View.read_apply]
  show V c main_call0_v0 _ = V c main_call0_v0 _
  refine congrArg (V c main_call0_v0) ?_
  funext a
  apply Fin.ext
  match a with
  | ⟨0, _⟩ => show win0_0.index t 0 * 256 + 1 * r.val = R.val; rw [e0, hR]; omega
  | ⟨1, _⟩ => show win0_0.index t 1 * 1024 + 1 * kk.val = K.val; rw [e1, hK]; omega

/-- Window 1 at point t, entry (r, kk): the activations at row 256 i + r, contraction coordinate 1024 + kk. -/
theorem iblk1_apply (c : Dev nD) (t : Fin cfg0.N) (r : Fin 256) (kk : Fin 1024) (R : Fin 16384) (K : Fin 4096)
    (hR : R.val = 256 * (t.val % 64) + r.val) (hK : K.val = 1024 + kk.val) :
    (iblk V c 1 t : Vec F S256x1024 .f32) (ix2 r kk) = V c main_call0_v0 (ix2 R K) := by
  obtain ⟨e0, e1, -⟩ := idx_facts1 t
  unfold iblk
  rw [View.read_apply]
  show V c main_call0_v0 _ = V c main_call0_v0 _
  refine congrArg (V c main_call0_v0) ?_
  funext a
  apply Fin.ext
  match a with
  | ⟨0, _⟩ => show win0_1.index t 0 * 256 + 1 * r.val = R.val; rw [e0, hR]; omega
  | ⟨1, _⟩ => show win0_1.index t 1 * 1024 + 1 * kk.val = K.val; rw [e1, hK]; omega

/-- Window 2 at point t, entry (r, kk): the activations at row 256 i + r, contraction coordinate 2048 + kk. -/
theorem iblk2_apply (c : Dev nD) (t : Fin cfg0.N) (r : Fin 256) (kk : Fin 1024) (R : Fin 16384) (K : Fin 4096)
    (hR : R.val = 256 * (t.val % 64) + r.val) (hK : K.val = 2048 + kk.val) :
    (iblk V c 2 t : Vec F S256x1024 .f32) (ix2 r kk) = V c main_call0_v0 (ix2 R K) := by
  obtain ⟨e0, e1, -⟩ := idx_facts2 t
  unfold iblk
  rw [View.read_apply]
  show V c main_call0_v0 _ = V c main_call0_v0 _
  refine congrArg (V c main_call0_v0) ?_
  funext a
  apply Fin.ext
  match a with
  | ⟨0, _⟩ => show win0_2.index t 0 * 256 + 1 * r.val = R.val; rw [e0, hR]; omega
  | ⟨1, _⟩ => show win0_2.index t 1 * 1024 + 1 * kk.val = K.val; rw [e1, hK]; omega

/-- Window 3 at point t, entry (r, kk): the activations at row 256 i + r, contraction coordinate 3072 + kk. -/
theorem iblk3_apply (c : Dev nD) (t : Fin cfg0.N) (r : Fin 256) (kk : Fin 1024) (R : Fin 16384) (K : Fin 4096)
    (hR : R.val = 256 * (t.val % 64) + r.val) (hK : K.val = 3072 + kk.val) :
    (iblk V c 3 t : Vec F S256x1024 .f32) (ix2 r kk) = V c main_call0_v0 (ix2 R K) := by
  obtain ⟨e0, e1, -⟩ := idx_facts3 t
  unfold iblk
  rw [View.read_apply]
  show V c main_call0_v0 _ = V c main_call0_v0 _
  refine congrArg (V c main_call0_v0) ?_
  funext a
  apply Fin.ext
  match a with
  | ⟨0, _⟩ => show win0_3.index t 0 * 256 + 1 * r.val = R.val; rw [e0, hR]; omega
  | ⟨1, _⟩ => show win0_3.index t 1 * 1024 + 1 * kk.val = K.val; rw [e1, hK]; omega

/-- Window 4 at point t, entry (n, K): the weights at row 2048 j + n, contraction coordinate K. -/
theorem iblk4_apply (c : Dev nD) (t : Fin cfg0.N) (n : Fin 2048) (K : Fin 4096) (N : Fin 4096)
    (hN : N.val = 2048 * (t.val / 64) + n.val) :
    (iblk V c 4 t : Vec F S2048x4096 .bf16) (ix2 n K) = V c main_call0_v2 (ix2 N K) := by
  obtain ⟨e0, e1⟩ := idx_facts4 t
  unfold iblk
  rw [View.read_apply]
  show V c main_call0_v2 _ = V c main_call0_v2 _
  refine congrArg (V c main_call0_v2) ?_
  funext a
  apply Fin.ext
  match a with
  | ⟨0, _⟩ => show win0_4.index t 0 * 2048 + 1 * n.val = N.val; rw [e0, hN]; omega
  | ⟨1, _⟩ => show win0_4.index t 1 * 4096 + 1 * K.val = K.val; rw [e1]; omega

/-- Window 5 at point t, entry (0, n): the bias row at 2048 j + n. -/
theorem iblk5_apply (c : Dev nD) (t : Fin cfg0.N) (n : Fin 2048) (N : Fin 4096)
    (hN : N.val = 2048 * (t.val / 64) + n.val) :
    (iblk V c 5 t : Vec F S1x2048 .f32) (ix2 (0 : Fin 1) n) = V c main_call0_v1 (ix2 (0 : Fin 1) N) := by
  obtain ⟨e0, e1⟩ := idx_facts5 t
  unfold iblk
  rw [View.read_apply]
  show V c main_call0_v1 _ = V c main_call0_v1 _
  refine congrArg (V c main_call0_v1) ?_
  funext a
  apply Fin.ext
  match a with
  | ⟨0, _⟩ => show win0_5.index t 0 * 1 + 1 * 0 = 0; rw [e0]
  | ⟨1, _⟩ => show win0_5.index t 1 * 2048 + 1 * n.val = N.val; rw [e1, hN]; omega

end Cert.KernelIdeal.KValue

end
-- ==== Proof.Spec.lean ====
/-
  The function both programs compute, stated once over literal shapes and importing neither program.
  With X the activations as a [16384, 4096] matrix, W the [4096, 4096] weight matrix (row n the weights of output
  feature n) and B the bias as a [1, 4096] row, the pre-activation at row r and feature n is
      pre r n = (Σ_{k < 4096} X(r, k) · W(n, k)) + B(0, n)
  and the result there is pre · logistic(pre). Around it stand the three reshapes both programs make: the
  [8, 2048, 4096] activations flattened to [16384, 4096], the bias [4096] as [1, 4096], and the result folded back.
  All sums are taken in the extended reals, whose addition is commutative and associative with no side condition;
  so a sum over the 4096 contraction coordinates is the sum of its four quarters in any grouping (sum_quarters).
-/
import Idealize.ShloMosaic.Lib.ValueIdx
import Idealize.ShloMosaic.Lib.Pipeline.Value
import Idealize.ShloMosaic.PureOps.Ideal.Laws

noncomputable section

open scoped BigOperators

namespace Cert.Spec

open Idealize.ShloMosaic Idealize.ShloMosaic.ValueIdx

abbrev SX3 : Shape := ⟨3, ![8, 2048, 4096]⟩
abbrev SX : Shape := ⟨2, ![16384, 4096]⟩
abbrev SW : Shape := ⟨2, ![4096, 4096]⟩
abbrev SB1 : Shape := ⟨1, ![4096]⟩
abbrev SB : Shape := ⟨2, ![1, 4096]⟩

theorem cast_x : SX3.ShapeCasts SX := by decide
theorem cast_b : SB1.ShapeCasts SB := by decide
theorem cast_out : SX.ShapeCasts SX3 := by decide

/-- The pre-activation at row `r` and output feature `n`: the row of X against the row of W, plus the bias. -/
def pre (X : SX.Idx → EReal) (W : SW.Idx → EReal) (B : SB.Idx → EReal) (r : Fin 16384) (n : Fin 4096) : EReal :=
  (∑ k : Fin 4096, X (ix2 r k) * W (ix2 n k)) + B (ix2 (0 : Fin 1) n)

/-- SiLU on the extended reals: z · logistic z. -/
def silu (z : EReal) : EReal := z * Ideal.logistic z

/-- The [16384, 4096] result matrix. -/
def G2 (X : SX.Idx → EReal) (W : SW.Idx → EReal) (B : SB.Idx → EReal) : SX.Idx → EReal :=
  fun j => silu (pre X W B ⟨(j 0).val, idx2_lt0 j⟩ ⟨(j 1).val, idx2_lt1 j⟩)

theorem G2_ix2 (X : SX.Idx → EReal) (W : SW.Idx → EReal) (B : SB.Idx → EReal) (r : Fin 16384) (n : Fin 4096) :
    G2 X W B (ix2 r n) = silu (pre X W B r n) := rfl

/-- The whole result: the reshapes of the activations and the bias, the matrix, the reshape back. -/
def result (x : SX3.Idx → EReal) (w : SW.Idx → EReal) (b : SB1.Idx → EReal) : SX3.Idx → EReal :=
  shapeCast SX3 (G2 (shapeCast SX x cast_x) w (shapeCast SB b cast_b)) cast_out

/-- A sum over the 4096 contraction coordinates is the sum of its four quarters of 1024, grouped from the left. -/
theorem sum_quarters (f : Fin 4096 → EReal) :
    ∑ k : Fin 4096, f k
      = ((∑ k : Fin 1024, f ⟨k.val, by omega⟩ + ∑ k : Fin 1024, f ⟨1024 + k.val, by omega⟩)
          + ∑ k : Fin 1024, f ⟨2048 + k.val, by omega⟩) + ∑ k : Fin 1024, f ⟨3072 + k.val, by omega⟩ := by
  have h : ∑ k : Fin (1024 + 1024 + 1024 + 1024), f k
      = ((∑ k : Fin 1024, f ⟨k.val, by omega⟩ + ∑ k : Fin 1024, f ⟨1024 + k.val, by omega⟩)
          + ∑ k : Fin 1024, f ⟨2048 + k.val, by omega⟩) + ∑ k : Fin 1024, f ⟨3072 + k.val, by omega⟩ := by
    rw [Fin.sum_univ_add, Fin.sum_univ_add, Fin.sum_univ_add]
    rfl
  exact h

end Cert.Spec

end
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.LibDotNT.lean ====
/-
  A matrix product that contracts the LAST axis of both operands, read at an index.
  For dimension numbers that contract axis 1 of an [M, K] left operand with axis 1 of an [N, K] right operand, with
  no batch axes — the product of a matrix with the transpose of another, x · wᵀ — the operand indices at result index
  (p, q) and contraction index k are (p, k) and (q, k); so the sum over the contraction shape is the sum over k < K
  of lhs (p, k) · rhs (q, k). A kernel's accumulating product into a zero accumulator is that sum at the extended reals.
-/
import proofs.«131315_g2000205920323473_pallasbulk_1242_9_alg».proof.Proof.LibDot

noncomputable section

namespace Idealize.ShloMosaic.LibDotNT

open Idealize.ShloMosaic Idealize.ShloMosaic.ValueIdx

/-- The product's sum over the contraction shape is the sum over the contracted extent. -/
theorem sum_nt {M K N : ℕ} (d : DotDims ⟨2, ![M, K]⟩ ⟨2, ![N, K]⟩ ⟨2, ![M, N]⟩)
    (hlc : d.lhsContracting = [1]) (hrc : d.rhsContracting = [1])
    (hlb : d.lhsBatch = []) (hrb : d.rhsBatch = []) (hln : d.lhsNonContracting = [0]) (hrn : d.rhsNonContracting = [0])
    (lhs : (⟨2, ![M, K]⟩ : Shape).Idx → EReal) (rhs : (⟨2, ![N, K]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 q k) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact LibDot.lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 q k := by
    funext a; apply Fin.ext
    match a with
    | ⟨0, _⟩ =>
      exact LibDot.rhsIdx_val_of_non d (a := 0) (by rw [hrb]; exact List.not_mem_nil) (by rw [hrn]; exact List.mem_singleton.mpr rfl) _ _ 1 (Nat.one_lt_two)
        (by rw [hlb, hln, hrn]; rfl)
    | ⟨1, _⟩ =>
      exact (d.rhsIdx_val_of_single (cr := 1) hrc _ _).trans (contrEquiv1_symm_val d K hr hs k)
  rw [hl, hrr]

/-- A kernel's product accumulated into the zero splat, read at (p, q). -/
theorem matmul_zero_nt {M K N : ℕ} {φ₁ φ₂ : FTy} (d : DotDims ⟨2, ![M, K]⟩ ⟨2, ![N, K]⟩ ⟨2, ![M, N]⟩)
    (hlc : d.lhsContracting = [1]) (hrc : d.rhsContracting = [1])
    (hlb : d.lhsBatch = []) (hrb : d.rhsBatch = []) (hln : d.lhsNonContracting = [0]) (hrn : d.rhsNonContracting = [0])
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) :=
  (Ideal.matmul_constant_zero_apply d prec lhs rhs (ix2 p q)).trans (sum_nt d hlc hrc hlb hrb hln hrn lhs rhs p q)

end Idealize.ShloMosaic.LibDotNT

end
-- ==== Proof.KIPay.lean ====
/-
  The body's arithmetic read at one element. With x0 … x3 the four [256, 1024] quarter-blocks of activation rows,
  w0 … w3 the four [2048, 1024] column quarters of the weight block and b the [1, 2048] bias block, the value stored
  at row r and column n is silu of
      (((Σ_k x0(r,k)·w0(n,k) + Σ_k x1(r,k)·w1(n,k)) + Σ_k x2(r,k)·w2(n,k)) + Σ_k x3(r,k)·w3(n,k)) + b(0, n):
  each product contracts the last axis of both operands into a zero accumulator, a change of float format is the
  identity on the extended reals, and the bias row is repeated down the rows.
-/
import proofs.«131315_g2000205920323473_pallasbulk_1242_9_alg».proof.Proof.Gen.KernelIdeal.Skeleton
import proofs.«131315_g2000205920323473_pallasbulk_1242_9_alg».proof.Proof.Spec
import proofs.«131315_g2000205920323473_pallasbulk_1242_9_alg».proof.Proof.LibDotNT
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

/-- One quarter product at (r, n). -/
theorem mm_apply (x : FVec Ideal S256x1024 .bf16) (w : FVec Ideal S2048x1024 .bf16) (r : Fin 256) (n : Fin 2048) :
    matmul dot_S256x1024_S2048x1024_S256x2048_1_1_0_0_n_n none x w (constant S256x2048 .f32 0x00000000#32) (ix2 r n)
      = ∑ k : Fin 1024, x (ix2 r k) * w (ix2 n k) :=
  LibDotNT.matmul_zero_nt dot_S256x1024_S2048x1024_S256x2048_1_1_0_0_n_n rfl rfl rfl rfl rfl rfl none x w r n

/-- The stored value at (r, n). -/
theorem pay_apply (x0 : Vec Ideal S256x1024 .f32) (w0 : Vec Ideal S2048x1024 .bf16) (x1 : Vec Ideal S256x1024 .f32) (w1 : Vec Ideal S2048x1024 .bf16)
    (x2 : Vec Ideal S256x1024 .f32) (w2 : Vec Ideal S2048x1024 .bf16) (x3 : Vec Ideal S256x1024 .f32) (w3 : Vec Ideal S2048x1024 .bf16)
    (b : Vec Ideal S1x2048 .f32) (r : Fin 256) (n : Fin 2048) :
    k0_pay1 (F := Ideal) x0 w0 x1 w1 x2 w2 x3 w3 b (ix2 r n)
      = Cert.Spec.silu (((((∑ k : Fin 1024, x0 (ix2 r k) * w0 (ix2 n k)) + ∑ k : Fin 1024, x1 (ix2 r k) * w1 (ix2 n k))
          + ∑ k : Fin 1024, x2 (ix2 r k) * w2 (ix2 n k)) + ∑ k : Fin 1024, x3 (ix2 r k) * w3 (ix2 n k)) + b (ix2 (0 : Fin 1) n)) := by
  have h0 := mm_apply (truncf (F := Ideal) .bf16 x0 bitsLt_bf16_f32) w0 r n
  have h1 := mm_apply (truncf (F := Ideal) .bf16 x1 bitsLt_bf16_f32) w1 r n
  have h2 := mm_apply (truncf (F := Ideal) .bf16 x2 bitsLt_bf16_f32) w2 r n
  have h3 := mm_apply (truncf (F := Ideal) .bf16 x3 bitsLt_bf16_f32) w3 r n
  have hb : broadcastTo S256x2048 b broadcasts_S1x2048_S256x2048 (ix2 r n) = b (ix2 (0 : Fin 1) n) :=
    broadcastTo_1b_ab_apply b broadcasts_S1x2048_S256x2048 r n
  unfold k0_pay1
  simp only [shapeCast_self]
  unfold Cert.Spec.silu
  show (((((matmul (F := Ideal) dot_S256x1024_S2048x1024_S256x2048_1_1_0_0_n_n none (truncf .bf16 x0 bitsLt_bf16_f32) w0 (constant S256x2048 .f32 0x00000000#32) (ix2 r n) + matmul (F := Ideal) dot_S256x1024_S2048x1024_S256x2048_1_1_0_0_n_n none (truncf .bf16 x1 bitsLt_bf16_f32) w1 (constant S256x2048 .f32 0x00000000#32) (ix2 r n))
        + matmul (F := Ideal) dot_S256x1024_S2048x1024_S256x2048_1_1_0_0_n_n none (truncf .bf16 x2 bitsLt_bf16_f32) w2 (constant S256x2048 .f32 0x00000000#32) (ix2 r n))
        + matmul (F := Ideal) dot_S256x1024_S2048x1024_S256x2048_1_1_0_0_n_n none (truncf .bf16 x3 bitsLt_bf16_f32) w3 (constant S256x2048 .f32 0x00000000#32) (ix2 r n))
        + broadcastTo S256x2048 b broadcasts_S1x2048_S256x2048 (ix2 r n)) : EReal)
      * Ideal.logistic ((((matmul (F := Ideal) dot_S256x1024_S2048x1024_S256x2048_1_1_0_0_n_n none (truncf .bf16 x0 bitsLt_bf16_f32) w0 (constant S256x2048 .f32 0x00000000#32) (ix2 r n) + matmul (F := Ideal) dot_S256x1024_S2048x1024_S256x2048_1_1_0_0_n_n none (truncf .bf16 x1 bitsLt_bf16_f32) w1 (constant S256x2048 .f32 0x00000000#32) (ix2 r n))
        + matmul (F := Ideal) dot_S256x1024_S2048x1024_S256x2048_1_1_0_0_n_n none (truncf .bf16 x2 bitsLt_bf16_f32) w2 (constant S256x2048 .f32 0x00000000#32) (ix2 r n))
        + matmul (F := Ideal) dot_S256x1024_S2048x1024_S256x2048_1_1_0_0_n_n none (truncf .bf16 x3 bitsLt_bf16_f32) w3 (constant S256x2048 .f32 0x00000000#32) (ix2 r n))
        + broadcastTo S256x2048 b broadcasts_S1x2048_S256x2048 (ix2 r n)) = _
  rw [h0, h1, h2, h3, hb]
  rfl

end Cert.KernelIdeal.Pay

end
-- ==== Proof.KVOut.lean ====
/-
  The output block the body leaves, read at an entry (r, n), at the ideal values.
  The body's one store covers the whole [256, 2048] buffer, so the buffer ends at the store's value. Its operands are
  the four activation quarter-blocks x0 … x3 loaded whole, the bias block loaded whole, and the four column quarters of
  the [2048, 4096] weight block x4: the load at column offset 1024 q reads x4(n, 1024 q + k) at (n, k). Hence the entry is
  silu of the four quarter sums Σ_k xq(r, k) · x4(n, 1024 q + k), added from the left, plus the bias entry.
-/
import proofs.«131315_g2000205920323473_pallasbulk_1242_9_alg».proof.Proof.KIData
import proofs.«131315_g2000205920323473_pallasbulk_1242_9_alg».proof.Proof.KIPay
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.KernelIdeal.Body

theorem hz : (![0, 0] : Fin 2 → Nat) = fun _ => 0 := funext fun a => by fin_cases a <;> rfl

/-- A load of the weight block's column quarter at column offset `off`, at (n, kk): the block at (n, off + kk). -/
theorem ldW_apply (x4 : Vec Ideal S2048x4096 .bf16) (off : ℕ)
    (inb : ∀ a, (![0, off] : Fin 2 → Nat) a + S2048x1024.size a ≤ S2048x4096.size a)
    (n : Fin 2048) (kk : Fin 1024) (K : Fin 4096) (hK : K.val = off + kk.val) :
    View.ld x4 (Rect.unit (s := S2048x4096) ![0, off] S2048x1024.size inb) (ix2 n kk) = x4 (ix2 n K) := by
  show x4 ((Rect.unit (s := S2048x4096) ![0, off] S2048x1024.size inb).idx (ix2 n kk)) = x4 (ix2 n K)
  refine congrArg x4 ?_
  funext a
  apply Fin.ext
  match a with
  | ⟨0, _⟩ => show 0 + 1 * n.val = n.val; omega
  | ⟨1, _⟩ => show off + 1 * kk.val = K.val; omega

/-- One quarter sum, with the weight quarter read in the block's own coordinates. -/
theorem quarter (x : Vec Ideal S256x1024 .f32) (x4 : Vec Ideal S2048x4096 .bf16) (off : ℕ)
    (inb : ∀ a, (![0, off] : Fin 2 → Nat) a + S2048x1024.size a ≤ S2048x4096.size a)
    (r : Fin 256) (n : Fin 2048) (K : Fin 1024 → Fin 4096) (hK : ∀ kk, (K kk).val = off + kk.val) :
    ∑ k : Fin 1024, x (ix2 r k) * View.ld x4 (Rect.unit (s := S2048x4096) ![0, off] S2048x1024.size inb) (ix2 n k)
      = ∑ k : Fin 1024, x (ix2 r k) * x4 (ix2 n (K k)) :=
  Finset.sum_congr rfl fun k _ => by rw [ldW_apply x4 off inb n k (K k) (hK k)]

/-- THE OUTPUT BLOCK at (r, n). -/
theorem out6_apply (x0 x1 x2 x3 : Vec Ideal S256x1024 .f32) (x4 : Vec Ideal S2048x4096 .bf16) (x5 : Vec Ideal S1x2048 .f32)
    (r : Fin 256) (n : Fin 2048) :
    out6 x0 x1 x2 x3 x4 x5 (ix2 r n)
      = Cert.Spec.silu (((((∑ k : Fin 1024, x0 (ix2 r k) * x4 (ix2 n ⟨k.val, by omega⟩))
          + ∑ k : Fin 1024, x1 (ix2 r k) * x4 (ix2 n ⟨1024 + k.val, by omega⟩))
          + ∑ k : Fin 1024, x2 (ix2 r k) * x4 (ix2 n ⟨2048 + k.val, by omega⟩))
          + ∑ k : Fin 1024, x3 (ix2 r k) * x4 (ix2 n ⟨3072 + k.val, by omega⟩)) + x5 (ix2 (0 : Fin 1) n)) := by
  unfold out6
  rw [View.canon_unit_zero hz]
  simp only [View.ld_unit_zero (S := S256x1024) hz, View.ld_unit_zero (S := S1x2048) hz]
  rw [Pay.pay_apply]
  rw [quarter x0 x4 0 inb_S2048x4096_S2048x1024_0_0 r n (fun k => ⟨k.val, by omega⟩) (fun kk => by show kk.val = 0 + kk.val; omega),
    quarter x1 x4 1024 inb_S2048x4096_S2048x1024_0_1024 r n (fun k => ⟨1024 + k.val, by omega⟩) (fun kk => rfl),
    quarter x2 x4 2048 inb_S2048x4096_S2048x1024_0_2048 r n (fun k => ⟨2048 + k.val, by omega⟩) (fun kk => rfl),
    quarter x3 x4 3072 inb_S2048x4096_S2048x1024_0_3072 r n (fun k => ⟨3072 + k.val, by omega⟩) (fun kk => rfl)]

end Cert.KernelIdeal.KValue

end
-- ==== Proof.KVFinal.lean ====
/-
  From blocks to the array, and the host operations around the region: the kernel's run at the ideal values.
  Before the region the activations are reshaped to the [16384, 4096] matrix X, the bias to the row B [1, 4096], and the
  weights W change float format, which is the identity on the extended reals. At point t = (j, i) the block written back
  is entry by entry the specification's matrix: at (r, n) it is silu of the four quarter sums over k < 1024 of
  X(256 i + r, 1024 q + k) · W(2048 j + n, 1024 q + k), added from the left, plus B(0, 2048 j + n); the four quarters are
  the one sum over the 4096 contraction coordinates (addition of extended reals is associative, no finiteness is used).
  Every point writes its block back and the blocks (i, j) tile the matrix, so after the region the result matrix is the
  specification's; the reshape after the region makes it the specification's result, and the arguments end unchanged.
-/
import proofs.«131315_g2000205920323473_pallasbulk_1242_9_alg».proof.Proof.KIRun
import proofs.«131315_g2000205920323473_pallasbulk_1242_9_alg».proof.Proof.KVBlocks
import proofs.«131315_g2000205920323473_pallasbulk_1242_9_alg».proof.Proof.KVOut
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Body Cert.KernelIdeal.Run

section AnyInstance

variable {F : FTy → Type} [FloatOps F]
variable (m : (ℓ : Loc nD τ sig) → Buf (Elt F) ℓ) (ρ : Dev nD → PrngReg)

/-- The activations matrix the region finds is the first reshape of the argument. -/
theorem V1_x (c : Dev nD) : V1 m ρ c main_call0_v0
    = shapeCast S16384x4096 (m ((c : Thread nD τ).loc main_arg0)) shapeCasts_S8x2048x4096_S16384x4096 := by
  show StableHlo.after hostOps0 (W0 m ρ c) (Proc.devRef .tc main_call0_v0) = _
  after_results
  rfl

/-- The bias row the region finds is the second reshape of the argument. -/
theorem V1_b (c : Dev nD) : V1 m ρ c main_call0_v1
    = shapeCast S1x4096 (m ((c : Thread nD τ).loc main_arg2)) shapeCasts_S4096_S1x4096 := by
  show StableHlo.after hostOps0 (W0 m ρ c) (Proc.devRef .tc main_call0_v1) = _
  after_results
  rfl

/-- The weights the region finds are the argument in the narrower float format. -/
theorem V1_w (c : Dev nD) : V1 m ρ c main_call0_v2
    = truncf .bf16 (m ((c : Thread nD τ).loc main_arg1)) bitsLt_bf16_f32 := by
  show StableHlo.after hostOps0 (W0 m ρ c) (Proc.devRef .tc main_call0_v2) = _
  after_results
  rfl

end AnyInstance

variable (m : (ℓ : Loc nD τ sig) → Buf (Elt Ideal) ℓ) (ρ : Dev nD → PrngReg)

/-- The three arrays the region reads, as the specification's matrices. -/
abbrev XA (c : Dev nD) : Cert.Spec.SX.Idx → EReal := V1 m ρ c main_call0_v0
abbrev WA (c : Dev nD) : Cert.Spec.SW.Idx → EReal := V1 m ρ c main_call0_v2
abbrev BA (c : Dev nD) : Cert.Spec.SB.Idx → EReal := V1 m ρ c main_call0_v1

/-- A quarter sum over a block's coordinates is the quarter sum over the matrices' coordinates. -/
theorem quarter_congr (x : Vec Ideal S256x1024 .f32) (x4 : Vec Ideal S2048x4096 .bf16)
    (X : Cert.Spec.SX.Idx → EReal) (W : Cert.Spec.SW.Idx → EReal)
    (r : Fin 256) (n : Fin 2048) (R : Fin 16384) (C : Fin 4096) (K : Fin 1024 → Fin 4096)
    (hx : ∀ k, x (ix2 r k) = X (ix2 R (K k))) (hw : ∀ k, x4 (ix2 n (K k)) = W (ix2 C (K k))) :
    ∑ k : Fin 1024, x (ix2 r k) * x4 (ix2 n (K k)) = ∑ k : Fin 1024, X (ix2 R (K k)) * W (ix2 C (K k)) :=
  Finset.sum_congr rfl fun k _ => by rw [hx k, hw k]

/-- The block point t leaves, at (r, n), is the specification's matrix at (256 i + r, 2048 j + n). -/
theorem block_value (c : Dev nD) (t : Fin cfg0.N) (r : Fin 256) (n : Fin 2048) (R : Fin 16384) (C : Fin 4096)
    (hR : R.val = 256 * (t.val % 64) + r.val) (hC : C.val = 2048 * (t.val / 64) + n.val)
    (x0 x1 x2 x3 : Vec Ideal S256x1024 .f32) (x4 : Vec Ideal S2048x4096 .bf16) (x5 : Vec Ideal S1x2048 .f32)
    (e0 : x0 = iblk (V1 m ρ) c 0 t) (e1 : x1 = iblk (V1 m ρ) c 1 t) (e2 : x2 = iblk (V1 m ρ) c 2 t)
    (e3 : x3 = iblk (V1 m ρ) c 3 t) (e4 : x4 = iblk (V1 m ρ) c 4 t) (e5 : x5 = iblk (V1 m ρ) c 5 t) :
    out6 x0 x1 x2 x3 x4 x5 (ix2 r n) = Cert.Spec.G2 (XA m ρ c) (WA m ρ c) (BA m ρ c) (ix2 R C) := by
  have hw : ∀ K : Fin 4096, x4 (ix2 n K) = WA m ρ c (ix2 C K) := fun K => by
    subst e4; exact iblk4_apply (V1 m ρ) c t n K C hC
  have hb : x5 (ix2 (0 : Fin 1) n) = BA m ρ c (ix2 (0 : Fin 1) C) := by
    subst e5; exact iblk5_apply (V1 m ρ) c t n C hC
  rw [out6_apply,
    quarter_congr x0 x4 (XA m ρ c) (WA m ρ c) r n R C (fun k => ⟨k.val, by omega⟩)
      (fun k => by subst e0; exact iblk0_apply (V1 m ρ) c t r k R ⟨k.val, by omega⟩ hR (by show k.val = 0 + k.val; omega)) (fun k => hw _),
    quarter_congr x1 x4 (XA m ρ c) (WA m ρ c) r n R C (fun k => ⟨1024 + k.val, by omega⟩)
      (fun k => by subst e1; exact iblk1_apply (V1 m ρ) c t r k R ⟨1024 + k.val, by omega⟩ hR rfl) (fun k => hw _),
    quarter_congr x2 x4 (XA m ρ c) (WA m ρ c) r n R C (fun k => ⟨2048 + k.val, by omega⟩)
      (fun k => by subst e2; exact iblk2_apply (V1 m ρ) c t r k R ⟨2048 + k.val, by omega⟩ hR rfl) (fun k => hw _),
    quarter_congr x3 x4 (XA m ρ c) (WA m ρ c) r n R C (fun k => ⟨3072 + k.val, by omega⟩)
      (fun k => by subst e3; exact iblk3_apply (V1 m ρ) c t r k R ⟨3072 + k.val, by omega⟩ hR rfl) (fun k => hw _),
    hb, Cert.Spec.G2_ix2]
  unfold Cert.Spec.pre
  rw [Cert.Spec.sum_quarters (fun k : Fin 4096 => XA m ρ c (ix2 R k) * WA m ρ c (ix2 C k))]

/-- The same at an entry y of the block and the entry i of the matrix it lands on. -/
theorem out_at (c : Dev nD) (t : Fin cfg0.N) (y : S256x2048.Idx) (i : S16384x4096.Idx)
    (h0 : (i 0).val = 256 * (t.val % 64) + (y 0).val) (h1 : (i 1).val = 2048 * (t.val / 64) + (y 1).val) :
    out6 (iblk (V1 m ρ) c 0 t) (iblk (V1 m ρ) c 1 t) (iblk (V1 m ρ) c 2 t) (iblk (V1 m ρ) c 3 t) (iblk (V1 m ρ) c 4 t) (iblk (V1 m ρ) c 5 t) y
      = Cert.Spec.G2 (XA m ρ c) (WA m ρ c) (BA m ρ c) i := by
  obtain ⟨r, n, rfl⟩ : ∃ (r : Fin 256) (n : Fin 2048), y = ix2 r n := ⟨y 0, y 1, eq_ix2 y⟩
  obtain ⟨R, C, rfl⟩ : ∃ (R : Fin 16384) (C : Fin 4096), i = ix2 R C := ⟨i 0, i 1, eq_ix2 i⟩
  exact block_value m ρ c t r n R C h0 h1 (iblk (V1 m ρ) c 0 t) (iblk (V1 m ρ) c 1 t) (iblk (V1 m ρ) c 2 t) (iblk (V1 m ρ) c 3 t) (iblk (V1 m ρ) c 4 t) (iblk (V1 m ρ) c 5 t) rfl rfl rfl rfl rfl rfl

/-- What a write-back writes is the corresponding block of the specification's matrix. -/
theorem flushed_eq (c : Dev nD) (t : Fin cfg0.N) (hf : (cfg0.win 6).flush t = true) :
    (dat (V1 m ρ) c).flushed 6 t
      = ((cfg0.win 6).blk t).view.read (Elt Ideal) (Cert.Spec.G2 (XA m ρ c) (WA m ρ c) (BA m ρ c)) := by
  obtain ⟨e0, e1⟩ := idx_facts6 t
  show (cfg0.win 6).cut (grid0.coords t) ((dat (V1 m ρ) c).after 6 t) = _
  rw [after6]
  funext y
  show out6 (iblk (V1 m ρ) c 0 t) (iblk (V1 m ρ) c 1 t) (iblk (V1 m ρ) c 2 t) (iblk (V1 m ρ) c 3 t) (iblk (V1 m ρ) c 4 t) (iblk (V1 m ρ) c 5 t) y
    = Cert.Spec.G2 (XA m ρ c) (WA m ρ c) (BA m ρ c) (((cfg0.win 6).blk t).view.emb y)
  refine out_at m ρ c t y _ ?_ ?_
  · show win0_6.index t (0 : Fin 2) * 256 + 1 * (y 0).val = 256 * (t.val % 64) + (y 0).val
    rw [e0]; omega
  · show win0_6.index t (1 : Fin 2) * 2048 + 1 * (y 1).val = 2048 * (t.val / 64) + (y 1).val
    rw [e1]; omega

/-- An entry of the matrix is in point t's block iff each coordinate is in the block's range on its axis. -/
theorem mem_blk (t : Fin cfg0.N) (i : S16384x4096.Idx) :
    i ∈ ((cfg0.win 6).blk t).view.set ↔ ∀ a : Fin 2, win0_6.index t a * S256x2048.size a ≤ (i a).val
      ∧ (i a).val < win0_6.index t a * S256x2048.size a + S256x2048.size a := by
  show i ∈ ((View.whole main_call0_v3).slice (win0_6.rect t)).set ↔ _
  rw [View.set_slice_whole, Rect.mem_set_unit]
  exact Iff.rfl

/-- Every entry of the matrix is in the block of a point (and every point writes its block back). -/
theorem cover (i : S16384x4096.Idx) :
    ∃ t : Fin cfg0.N, (cfg0.win 6).flush t = true ∧ i ∈ ((cfg0.win 6).blk t).view.set := by
  have hi0 : (i 0).val < 16384 := idx2_lt0 i
  have hi1 : (i 1).val < 4096 := idx2_lt1 i
  have hN : cfg0.N = 128 := N_0
  obtain ⟨t, ht⟩ : ∃ t : Fin cfg0.N, t.val = (i 1).val / 2048 * 64 + (i 0).val / 256 :=
    ⟨⟨(i 1).val / 2048 * 64 + (i 0).val / 256, by rw [hN]; omega⟩, rfl⟩
  obtain ⟨e0, e1⟩ := idx_facts6 t
  refine ⟨t, flush0_6 t, ?_⟩
  rw [mem_blk]
  intro a
  match a with
  | ⟨0, _⟩ =>
    show win0_6.index t (0 : Fin 2) * 256 ≤ (i 0).val ∧ (i 0).val < win0_6.index t (0 : Fin 2) * 256 + 256
    rw [e0, ht]; omega
  | ⟨1, _⟩ =>
    show win0_6.index t (1 : Fin 2) * 2048 ≤ (i 1).val ∧ (i 1).val < win0_6.index t (1 : Fin 2) * 2048 + 2048
    rw [e1, ht]; omega

/-- After the region the result matrix is the specification's matrix of the arrays the region read. -/
theorem final (c : Dev nD) : (dat (V1 m ρ) c).arrAt 6 cfg0.N = Cert.Spec.G2 (XA m ρ c) (WA m ρ c) (BA m ρ c) :=
  (dat (V1 m ρ) c).arrAt_eq_of_cover 6 (Cert.Spec.G2 (XA m ρ c) (WA m ρ c) (BA m ρ c)) (flushed_eq m ρ c) cover

/-- The reshape after the region makes it the specification's result of the three arguments. -/
theorem tail_eq (c : Dev nD) :
    W3 m ρ c (Proc.devRef .tc main_v0)
      = Cert.Spec.result (m ((c.tc : Thread nD τ).loc main_arg0)) (m ((c.tc : Thread nD τ).loc main_arg1))
          (m ((c.tc : Thread nD τ).loc main_arg2)) := by
  show StableHlo.after hostOps1 (Run.W2 m ρ c) (Proc.devRef .tc main_v0) = _
  after_results
  show shapeCast S8x2048x4096 (Run.W2 m ρ c (Proc.devRef .tc main_call0_v3)) shapeCasts_S16384x4096_S8x2048x4096 = _
  rw [W2_out, final]
  show shapeCast S8x2048x4096 (Cert.Spec.G2 (V1 m ρ c main_call0_v0) (V1 m ρ c main_call0_v2) (V1 m ρ c main_call0_v1))
      shapeCasts_S16384x4096_S8x2048x4096 = _
  rw [V1_x, V1_b, V1_w]
  rfl

/-- THE KERNEL'S RUN at the ideal values: every weakly fair execution terminates, the result array holds the
    specification's result of the three argument arrays, and the arguments end unchanged. -/
theorem run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
      r.2.mem ((c.tc : Thread Cert.KernelIdeal.nD Cert.KernelIdeal.τ).loc Cert.KernelIdeal.main_v0)
        = Cert.Spec.result (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0)
        = (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg1)
        = (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg2)
        = (m ((c.tc : Thread Cert.KernelIdeal.nD Cert.KernelIdeal.τ).loc Cert.KernelIdeal.main_arg2))) :=
  (θ_run defs _ _).mono (fun r h c =>
    ⟨(h c _ (mem_uc main_v0 (by decide))).trans (tail_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (Cert.KernelIdeal.Run.run_main (F := Ideal) m ρ)

end Cert.KernelIdeal.KValue

end
-- ==== Proof.RefAcc.lean ====
/-
  The arithmetic of the K-blocked accumulation, over literal shapes and importing no program.
  The 4096 contraction coordinates are cut into four tiles of 1024; tile q holds the coordinates 1024·q + kk.
  For a row r of X and a row n of W, `part q` is the tile's contribution Σ_{kk<1024} X(r, 1024 q + kk) · W(n, 1024 q + kk),
  and `acc q` is what an accumulator started from zero holds after the tiles 0, …, q were added in order:
  ((0 + part 0) + part 1) + … . After the last tile it is the whole contraction sum: addition of extended reals is
  associative, so the left-nested sum of the four quarters is the sum over all 4096 coordinates (no finiteness is used).
-/
import proofs.«131315_g2000205920323473_pallasbulk_1242_9_alg».proof.Proof.Spec

noncomputable section

open scoped BigOperators

namespace Cert.ReferenceIdeal.RefValue

open Idealize.ShloMosaic Idealize.ShloMosaic.ValueIdx

/-- Contraction coordinate kk of tile q (the remainder only makes the function total; for q < 4 it changes nothing). -/
def kfin (q : ℕ) (kk : Fin 1024) : Fin 4096 := ⟨(1024 * q + kk.val) % 4096, Nat.mod_lt _ (by decide)⟩

theorem kfin_val (q : ℕ) (hq : q < 4) (kk : Fin 1024) : (kfin q kk).val = 1024 * q + kk.val := by
  have := kk.isLt
  show (1024 * q + kk.val) % 4096 = _
  omega

/-- Tile q's contribution to the product of row r of X with row n of W. -/
def part (X : Cert.Spec.SX.Idx → EReal) (W : Cert.Spec.SW.Idx → EReal) (r : Fin 16384) (n : Fin 4096) (q : ℕ) : EReal :=
  ∑ kk : Fin 1024, X (ix2 r (kfin q kk)) * W (ix2 n (kfin q kk))

/-- The accumulator after tile q: zero, then the tiles added in order. -/
def acc (X : Cert.Spec.SX.Idx → EReal) (W : Cert.Spec.SW.Idx → EReal) (r : Fin 16384) (n : Fin 4096) : ℕ → EReal
  | 0 => Ideal.ofBits .f32 0x00000000#32 + part X W r n 0
  | q + 1 => acc X W r n q + part X W r n (q + 1)

theorem acc_zero (X : Cert.Spec.SX.Idx → EReal) (W : Cert.Spec.SW.Idx → EReal) (r : Fin 16384) (n : Fin 4096) :
    acc X W r n 0 = Ideal.ofBits .f32 0x00000000#32 + part X W r n 0 := rfl

theorem acc_succ (X : Cert.Spec.SX.Idx → EReal) (W : Cert.Spec.SW.Idx → EReal) (r : Fin 16384) (n : Fin 4096) (q : ℕ) :
    acc X W r n (q + 1) = acc X W r n q + part X W r n (q + 1) := rfl

/-- A tile's contribution is the corresponding quarter of the contraction sum. -/
theorem part_eq (X : Cert.Spec.SX.Idx → EReal) (W : Cert.Spec.SW.Idx → EReal) (r : Fin 16384) (n : Fin 4096) (q : ℕ) (hq : q < 4) :
    part X W r n q = ∑ kk : Fin 1024, (fun k : Fin 4096 => X (ix2 r k) * W (ix2 n k)) ⟨1024 * q + kk.val, by have := kk.isLt; omega⟩ := by
  unfold part
  refine Finset.sum_congr rfl fun kk _ => ?_
  have e : kfin q kk = ⟨1024 * q + kk.val, by have := kk.isLt; omega⟩ := Fin.ext (kfin_val q hq kk)
  rw [e]

/-- After the fourth tile the accumulator holds the whole contraction sum. -/
theorem acc_three (X : Cert.Spec.SX.Idx → EReal) (W : Cert.Spec.SW.Idx → EReal) (r : Fin 16384) (n : Fin 4096) :
    acc X W r n 3 = ∑ k : Fin 4096, X (ix2 r k) * W (ix2 n k) := by
  rw [Cert.Spec.sum_quarters (fun k : Fin 4096 => X (ix2 r k) * W (ix2 n k))]
  rw [acc_succ, acc_succ, acc_succ, acc_zero, Ideal.ofBits_zero_f32, zero_add,
    part_eq X W r n 0 (by omega), part_eq X W r n 1 (by omega), part_eq X W r n 2 (by omega), part_eq X W r n 3 (by omega)]
  rfl

/-- So the value written back, silu of the accumulator plus the bias, is the specification's entry. -/
theorem silu_acc_three (X : Cert.Spec.SX.Idx → EReal) (W : Cert.Spec.SW.Idx → EReal) (B : Cert.Spec.SB.Idx → EReal)
    (r : Fin 16384) (n : Fin 4096) :
    Cert.Spec.silu (acc X W r n 3 + B (ix2 (0 : Fin 1) n)) = Cert.Spec.G2 X W B (ix2 r n) := by
  rw [Cert.Spec.G2_ix2, acc_three]
  rfl

end Cert.ReferenceIdeal.RefValue

end
-- ==== Proof.RefPay.lean ====
/-
  The body's three pure payloads read at an index (r, n) of the [256, 512] block, at the ideal values.
    pay1 : the zero block — every entry is the word +0.0.
    pay2 : acc + matmul(x, w) into the zero splat, contracting axis 1 of BOTH operands, so at (r, n) it is
           acc(r, n) + Σ_{kk < 1024} x(r, kk) · w(n, kk)   (row r of x against row n of w).
    pay3 : z · logistic z with z = acc + the bias row broadcast over the 256 rows, so at (r, n) it is
           silu(acc(r, n) + bias(0, n)).
-/
import proofs.«131315_g2000205920323473_pallasbulk_1242_9_alg».proof.Proof.Gen.ReferenceIdeal.Skeleton
import proofs.«131315_g2000205920323473_pallasbulk_1242_9_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen

/-- The body's dimension numbers: contract axis 1 of both operands. -/
abbrev dotD : DotDims S256x1024 S512x1024 S256x512 := dot_S256x1024_S512x1024_S256x512_1_1_0_0_n_n

/-- The matrix product into the zero splat, at (r, n): row r of the left operand against row n of the right one. -/
theorem mm_apply (A : FVec Ideal S256x1024 .f32) (B : FVec Ideal S512x1024 .f32) (r : Fin 256) (n : Fin 512) :
    matmul (F := Ideal) dotD none A B (constant S256x512 .f32 0x00000000#32) (ix2 r n) = ∑ kk : Fin 1024, A (ix2 r kk) * B (ix2 n kk) := by
  show FloatOps.matmul dotD none A B _ (ix2 r n) = _
  rw [Ideal.matmul_constant_zero_apply, ← Equiv.sum_comp (contrEquiv1 dotD 1024 rfl rfl).symm]
  refine Finset.sum_congr rfl fun kk _ => ?_
  have c2 := contrEquiv1_symm_val dotD 1024 rfl rfl kk
  have l2 : dotD.lhsIdx (ix2 r n) ((contrEquiv1 dotD 1024 rfl rfl).symm kk) = ix2 r kk := by
    funext ax; apply Fin.ext
    match ax with
    | ⟨0, _⟩ => simp [DotDims.lhsIdx, dotD, dot_S256x1024_S512x1024_S256x512_1_1_0_0_n_n]; rfl
    | ⟨1, _⟩ => simp [DotDims.lhsIdx, dotD, dot_S256x1024_S512x1024_S256x512_1_1_0_0_n_n]; exact c2
  have r2 : dotD.rhsIdx (ix2 r n) ((contrEquiv1 dotD 1024 rfl rfl).symm kk) = ix2 n kk := by
    funext ax; apply Fin.ext
    match ax with
    | ⟨0, _⟩ => simp [DotDims.rhsIdx, dotD, dot_S256x1024_S512x1024_S256x512_1_1_0_0_n_n]; rfl
    | ⟨1, _⟩ => simp [DotDims.rhsIdx, dotD, dot_S256x1024_S512x1024_S256x512_1_1_0_0_n_n]; exact c2
  rw [l2, r2]

/-- The zero block. -/
theorem pay1_apply (r : Fin 256) (n : Fin 512) : k0_pay1 (F := Ideal) (ix2 r n) = Ideal.ofBits .f32 0x00000000#32 := by
  unfold k0_pay1
  rw [shapeCast_self]
  rfl

/-- The accumulation step. -/
theorem pay2_apply (v3 : Vec Ideal S256x512 .f32) (v4 : Vec Ideal S256x1024 .f32) (v6 : Vec Ideal S512x1024 .f32)
    (r : Fin 256) (n : Fin 512) :
    k0_pay2 v3 v4 v6 (ix2 r n) = v3 (ix2 r n) + ∑ kk : Fin 1024, v4 (ix2 r kk) * v6 (ix2 n kk) := by
  unfold k0_pay2
  rw [shapeCast_self, shapeCast_self]
  show (v3 (ix2 r n) : EReal) + matmul (F := Ideal) dotD none v4 v6 (constant S256x512 .f32 0x00000000#32) (ix2 r n) = _
  rw [mm_apply]

/-- The bias row broadcast over the rows, at (r, n), is the row's entry n. -/
theorem bias_apply (v : FVec Ideal S1x512 .f32) (r : Fin 256) (n : Fin 512) :
    broadcastTo S256x512 v broadcasts_S1x512_S256x512 (ix2 r n) = v (ix2 (0 : Fin 1) n) := by
  refine broadcastTo_apply v broadcasts_S1x512_S256x512 (ix2 r n) (ix2 (0 : Fin 1) n) ?_
  intro a
  match a with
  | ⟨0, _⟩ => rfl
  | ⟨1, _⟩ => rfl

/-- The epilogue. -/
theorem pay3_apply (v15 : Vec Ideal S256x512 .f32) (v16 : Vec Ideal S1x512 .f32) (r : Fin 256) (n : Fin 512) :
    k0_pay3 v15 v16 (ix2 r n) = Cert.Spec.silu (v15 (ix2 r n) + v16 (ix2 (0 : Fin 1) n)) := by
  unfold k0_pay3
  rw [shapeCast_self]
  show (v15 (ix2 r n) + broadcastTo S256x512 v16 broadcasts_S1x512_S256x512 (ix2 r n))
      * Ideal.logistic (v15 (ix2 r n) + broadcastTo S256x512 v16 broadcasts_S1x512_S256x512 (ix2 r n)) = _
  rw [bias_apply]
  rfl

end Cert.ReferenceIdeal.RefValue

end
-- ==== Proof.RefPieces.lean ====
/-
  What one run of the body leaves behind, as terms over the body's three pure payloads (generic in the float instance).
  The body keeps a [256, 512] accumulator across the K axis of the grid. With x and w the point's blocks of the two
  matrices and acc the accumulator as the previous point left it:
    k = 0      : the accumulator is overwritten by the zero block, read back, and ends at  zero + x·wᵀ ;
    0 < k < 3  : it ends at  acc + x·wᵀ ;
    k = 3      : it ends at  acc + x·wᵀ  as well, and the output block is the epilogue (add the bias row, multiply by
                 the logistic) of that new accumulator, which the body reads back after storing it.
  Each statement reads the list of stores the generated run found back through the store rectangles, which are the
  whole buffers at offset zero.
-/
import proofs.«131315_g2000205920323473_pallasbulk_1242_9_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

variable {F : FTy → Type} [FloatOps F]

theorem hz : (![0, 0] : Fin 2 → Nat) = fun _ => 0 := funext fun a => by fin_cases a <;> rfl

/-- At a point with 0 < k < 3 the accumulator ends at its old contents plus the product of the two blocks. -/
theorem sout_B (c : Dev nD) (i : grid0.Coords) (a3 : Memref sig .tc .vmem S256x1024 .f32) (h3 : a3.IsWhole)
    (a4 : Memref sig .tc .vmem S512x1024 .f32) (h4 : a4.IsWhole) (a5 : Memref sig .tc .vmem S1x512 .f32) (h5 : a5.IsWhole)
    (a6 : Memref sig .tc .vmem S256x512 .f32) (h6 : a6.IsWhole) (a7 : Memref sig .tc .vmem S256x512 .f32) (h7 : a7.IsWhole)
    (hc0 : ¬cond0_0 i) (hc1 : ¬cond0_1 i)
    (x0 : Vec F S256x1024 .f32) (x1 : Vec F S512x1024 .f32) (x2 : Vec F S1x512 .f32) (xs0 : Vec F S256x512 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h7.read_unread, h3.read_unread, h4.read_unread, View.ld_unit_zero (S := S256x512) hz,
    View.ld_unit_zero (S := S256x1024) hz, View.ld_unit_zero (S := S512x1024) hz]

/-- At a point with k = 0 the accumulator is first set to the zero block, read back, and ends at zero plus the product. -/
theorem sout_A (c : Dev nD) (i : grid0.Coords) (a3 : Memref sig .tc .vmem S256x1024 .f32) (h3 : a3.IsWhole)
    (a4 : Memref sig .tc .vmem S512x1024 .f32) (h4 : a4.IsWhole) (a5 : Memref sig .tc .vmem S1x512 .f32) (h5 : a5.IsWhole)
    (a6 : Memref sig .tc .vmem S256x512 .f32) (h6 : a6.IsWhole) (a7 : Memref sig .tc .vmem S256x512 .f32) (h7 : a7.IsWhole)
    (hc0 : cond0_0 i) (hc1 : ¬cond0_1 i)
    (x0 : Vec F S256x1024 .f32) (x1 : Vec F S512x1024 .f32) (x2 : Vec F S1x512 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S256x512) hz, View.readCov_unit_zero (S := S256x512) _ hz]
  simp only [View.readAt_eq_ld, h3.read_unread, h4.read_unread,
    View.ld_unit_zero (S := S256x1024) hz, View.ld_unit_zero (S := S512x1024) hz]

/-- At a point with k = 3 the accumulator ends as at the other points with k > 0, -/
theorem sout_C (c : Dev nD) (i : grid0.Coords) (a3 : Memref sig .tc .vmem S256x1024 .f32) (h3 : a3.IsWhole)
    (a4 : Memref sig .tc .vmem S512x1024 .f32) (h4 : a4.IsWhole) (a5 : Memref sig .tc .vmem S1x512 .f32) (h5 : a5.IsWhole)
    (a6 : Memref sig .tc .vmem S256x512 .f32) (h6 : a6.IsWhole) (a7 : Memref sig .tc .vmem S256x512 .f32) (h7 : a7.IsWhole)
    (hc0 : ¬cond0_0 i) (hc1 : cond0_1 i)
    (x0 : Vec F S256x1024 .f32) (x1 : Vec F S512x1024 .f32) (x2 : Vec F S1x512 .f32) (xs0 : Vec F S256x512 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h7.read_unread, h3.read_unread, h4.read_unread, View.ld_unit_zero (S := S256x512) hz,
    View.ld_unit_zero (S := S256x1024) hz, View.ld_unit_zero (S := S512x1024) hz]

/-- and the output block is the epilogue of that accumulator, read back, and the bias block. -/
theorem out_C (c : Dev nD) (i : grid0.Coords) (a3 : Memref sig .tc .vmem S256x1024 .f32) (h3 : a3.IsWhole)
    (a4 : Memref sig .tc .vmem S512x1024 .f32) (h4 : a4.IsWhole) (a5 : Memref sig .tc .vmem S1x512 .f32) (h5 : a5.IsWhole)
    (a6 : Memref sig .tc .vmem S256x512 .f32) (h6 : a6.IsWhole) (a7 : Memref sig .tc .vmem S256x512 .f32) (h7 : a7.IsWhole)
    (hc0 : ¬cond0_0 i) (hc1 : cond0_1 i)
    (x0 : Vec F S256x1024 .f32) (x1 : Vec F S512x1024 .f32) (x2 : Vec F S1x512 .f32) (xs0 : Vec F S256x512 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S256x512) _ hz]
  simp only [View.readAt_eq_ld, h7.read_unread, h3.read_unread, h4.read_unread, h5.read_unread, View.ld_unit_zero (S := S256x512) hz,
    View.ld_unit_zero (S := S256x1024) hz, View.ld_unit_zero (S := S512x1024) hz, View.ld_unit_zero (S := S1x512) hz]

end Cert.ReferenceIdeal.RefValue

end
-- ==== Proof.RefCases.lean ====
/-
  The generated recursion over the grid's points, one step at a time (generic in the float instance).
  After point t the accumulator holds
    zero + x_t·w_tᵀ                         when k = t % 4 = 0,
    (what point t - 1 left) + x_t·w_tᵀ      otherwise,
  where x_t, w_t are the point's blocks of the two matrices; and at k = 3 the output block is the epilogue of the
  accumulator the same point leaves and of the point's bias block.
-/
import proofs.«131315_g2000205920323473_pallasbulk_1242_9_alg».proof.Proof.RefPieces

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

variable {F : FTy → Type} [FloatOps F]
variable (m : (ℓ : Loc nD τ sig) → Buf (Elt F) ℓ)

/-- First K tile: the accumulator restarts from the zero block. -/
theorem outs_first (c : Dev nD) (t : Fin cfg0.N) (h0 : t.val % 4 = 0) :
    (outsAt0 m c t.val t.isLt).2 = k0_pay2 (k0_pay1 (F := F)) (iblk m c 0 t) (iblk m c 1 t) := by
  have h1 : ¬t.val % 4 = 3 := by omega
  rw [outsAt0_A m c t h0 h1]
  dsimp only
  exact sout_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- Later K tiles: the accumulator continues from what the point before left. -/
theorem outs_step (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    exact sout_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2
  · rw [outsAt0_B m c t h0 h1]
    dsimp only
    exact sout_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2

/-- Last K tile: the output block is the epilogue of the accumulator this point leaves. -/
theorem outs_flush (c : Dev nD) (t : Fin cfg0.N) (h3 : t.val % 4 = 3) :
    (outsAt0 m c t.val t.isLt).1 = k0_pay3 (outsAt0 m c t.val t.isLt).2 (iblk m c 2 t) := by
  have h0 : ¬t.val % 4 = 0 := by omega
  rw [outsAt0_C m c t h0 h3]
  dsimp only
  rw [sout_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t)
      (outsAt0 m c (t.val - 1) (Nat.lt_of_le_of_lt (Nat.sub_le _ _) t.isLt)).2]
  exact out_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t)
      (outsAt0 m c (t.val - 1) (Nat.lt_of_le_of_lt (Nat.sub_le _ _) t.isLt)).2

end Cert.ReferenceIdeal.RefValue

end
-- ==== Proof.RefBlocks.lean ====
/-
  Where the pipeline's blocks sit in the arrays the region finds (generic in the float instance).
  The grid is [64, 8, 4] with the last axis fastest: point t has row block i = t / 32, column block j = t / 4 % 8 and
  K tile k = t % 4. At point t
    window 0 is block (i, k) of the activations as a [16384, 4096] matrix: entry (r, kk) is X(256 i + r, 1024 k + kk);
    window 1 is block (j, k) of the weights:                              entry (n, kk) is W(512 j + n, 1024 k + kk);
    window 2 is block (0, j) of the bias row [1, 4096]:                   entry (0, n)  is B(0, 512 j + n);
    window 3 is block (i, j) of the result matrix.
  The activations matrix and the bias row are written by the two reshapes before the region; the weights are an
  argument, untouched.
-/
import proofs.«131315_g2000205920323473_pallasbulk_1242_9_alg».proof.Proof.Gen.ReferenceIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen

variable {F : FTy → Type} [FloatOps F]
variable (m : (ℓ : Loc nD τ sig) → Buf (Elt F) ℓ)

/-- The activations matrix the region finds is the first reshape of the argument. -/
theorem V_x (c : Dev nD) : V m c main_call0_v0
    = shapeCast S16384x4096 (m ((c : Thread nD τ).loc main_arg0)) shapeCasts_S8x2048x4096_S16384x4096 := by
  show StableHlo.after hostOps0 (fun b => m (c, b)) (Proc.devRef .tc main_call0_v0) = _
  after_results
  rfl

/-- The bias row the region finds is the second reshape of the argument. -/
theorem V_b (c : Dev nD) : V m c main_call0_v1
    = shapeCast S1x4096 (m ((c : Thread nD τ).loc main_arg2)) shapeCasts_S4096_S1x4096 := by
  show StableHlo.after hostOps0 (fun b => m (c, b)) (Proc.devRef .tc main_call0_v1) = _
  after_results
  rfl

/-- The printed index maps in closed form, decided over the grid. -/
theorem idx_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = 0 ∧ win0_2.index t (1 : Fin 2) = t.val / 4 % 8
    ∧ win0_3.index t (0 : Fin 2) = t.val / 32 ∧ win0_3.index t (1 : Fin 2) = t.val / 4 % 8 :=
  (by decide +kernel : ∀ t : Fin grid0.N, _)

/-- Window 0 at point t, entry (r, kk): the activations at row 256 i + r, contraction coordinate 1024 k + kk. -/
theorem iblk0_apply (c : Dev nD) (t : Fin cfg0.N) (r : Fin 256) (kk : Fin 1024) (R : Fin 16384) (K : Fin 4096)
    (hR : R.val = 256 * (t.val / 32) + r.val) (hK : K.val = 1024 * (t.val % 4) + kk.val) :
    (iblk m c 0 t : Vec F S256x1024 .f32) (ix2 r kk) = V m c main_call0_v0 (ix2 R K) := by
  obtain ⟨e0, e1, -⟩ := idx_facts t
  unfold iblk
  rw [View.read_apply]
  show V m c main_call0_v0 _ = V m c main_call0_v0 _
  refine congrArg (V m c main_call0_v0) ?_
  funext a
  apply Fin.ext
  match a with
  | ⟨0, _⟩ => show win0_0.index t 0 * 256 + 1 * r.val = R.val; rw [e0, hR]; omega
  | ⟨1, _⟩ => show win0_0.index t 1 * 1024 + 1 * kk.val = K.val; rw [e1, hK]; omega

/-- Window 1 at point t, entry (n, kk): the weights at row 512 j + n, contraction coordinate 1024 k + kk. -/
theorem iblk1_apply (c : Dev nD) (t : Fin cfg0.N) (n : Fin 512) (kk : Fin 1024) (N : Fin 4096) (K : Fin 4096)
    (hN : N.val = 512 * (t.val / 4 % 8) + n.val) (hK : K.val = 1024 * (t.val % 4) + kk.val) :
    (iblk m c 1 t : Vec F S512x1024 .f32) (ix2 n kk) = V m c main_arg1 (ix2 N K) := by
  obtain ⟨-, -, e2, e3, -⟩ := idx_facts t
  unfold iblk
  rw [View.read_apply]
  show V m c main_arg1 _ = V m c main_arg1 _
  refine congrArg (V m c main_arg1) ?_
  funext a
  apply Fin.ext
  match a with
  | ⟨0, _⟩ => show win0_1.index t 0 * 512 + 1 * n.val = N.val; rw [e2, hN]; omega
  | ⟨1, _⟩ => show win0_1.index t 1 * 1024 + 1 * kk.val = K.val; rw [e3, hK]; omega

/-- Window 2 at point t, entry (0, n): the bias row at 512 j + n. -/
theorem iblk2_apply (c : Dev nD) (t : Fin cfg0.N) (n : Fin 512) (N : Fin 4096)
    (hN : N.val = 512 * (t.val / 4 % 8) + n.val) :
    (iblk m c 2 t : Vec F S1x512 .f32) (ix2 (0 : Fin 1) n) = V m c main_call0_v1 (ix2 (0 : Fin 1) N) := by
  obtain ⟨-, -, -, -, e4, e5, -⟩ := idx_facts t
  unfold iblk
  rw [View.read_apply]
  show V m c main_call0_v1 _ = V m c main_call0_v1 _
  refine congrArg (V m c main_call0_v1) ?_
  funext a
  apply Fin.ext
  match a with
  | ⟨0, _⟩ => show win0_2.index t 0 * 1 + 1 * 0 = 0; rw [e4]
  | ⟨1, _⟩ => show win0_2.index t 1 * 512 + 1 * n.val = N.val; rw [e5, hN]; omega

end Cert.ReferenceIdeal.RefValue

end
-- ==== Proof.RefInv.lean ====
/-
  The accumulator's contents after every grid point, at the ideal values.
  With X the activations as the [16384, 4096] matrix the region finds, W the weights, and point t = (i, j, k)
  (i = t / 32, j = t / 4 % 8, k = t % 4), the accumulator after point t holds at (r, n)
      acc X W (256 i + r) (512 j + n) k  =  ((0 + part 0) + … ) + part k,
  the contributions of the K tiles 0 … k of row 256 i + r of X against row 512 j + n of W, added in order: by
  induction on the point, the first K tile restarting from zero and every later one continuing from the point before
  (which has the same i and j). At k = 3 the block written back is therefore silu(acc 3 + bias), the specification's
  entry at (256 i + r, 512 j + n).
-/
import proofs.«131315_g2000205920323473_pallasbulk_1242_9_alg».proof.Proof.RefAcc
import proofs.«131315_g2000205920323473_pallasbulk_1242_9_alg».proof.Proof.RefPay
import proofs.«131315_g2000205920323473_pallasbulk_1242_9_alg».proof.Proof.RefCases
import proofs.«131315_g2000205920323473_pallasbulk_1242_9_alg».proof.Proof.RefBlocks

noncomputable section

open scoped BigOperators
open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen

variable (m : (ℓ : Loc nD τ sig) → Buf (Elt Ideal) ℓ)

/-- The three arrays the region reads, as the specification's matrices. -/
abbrev X2 (c : Dev nD) : Cert.Spec.SX.Idx → EReal := V m c main_call0_v0
abbrev W2 (c : Dev nD) : Cert.Spec.SW.Idx → EReal := V m c main_arg1
abbrev B2 (c : Dev nD) : Cert.Spec.SB.Idx → EReal := V m c main_call0_v1

/-- Row r of point t's row block, and column n of its column block, in the whole matrices. -/
def rowOf (t : ℕ) (r : Fin 256) : Fin 16384 := ⟨256 * (t / 32 % 64) + r.val, by have := r.isLt; omega⟩
def colOf (t : ℕ) (n : Fin 512) : Fin 4096 := ⟨512 * (t / 4 % 8) + n.val, by have := n.isLt; omega⟩

/-- The product of point t's two blocks at (r, n) is the K tile's contribution. -/
theorem blocks_part (c : Dev nD) (t : Fin cfg0.N) (r : Fin 256) (n : Fin 512)
    (x0 : Vec Ideal S256x1024 .f32) (x1 : Vec Ideal S512x1024 .f32) (hx0 : x0 = iblk m c 0 t) (hx1 : x1 = iblk m c 1 t) :
    ∑ kk : Fin 1024, x0 (ix2 r kk) * x1 (ix2 n kk)
      = part (X2 m c) (W2 m c) (rowOf t.val r) (colOf t.val n) (t.val % 4) := by
  have hN : t.val < 2048 := lt_of_lt_of_eq t.isLt (show cfg0.N = 2048 from N_0)
  subst hx0 hx1
  unfold part
  refine Finset.sum_congr rfl fun kk _ => ?_
  rw [iblk0_apply m c t r kk (rowOf t.val r) (kfin (t.val % 4) kk) (by show 256 * (t.val / 32 % 64) + r.val = _; omega)
      (kfin_val _ (by omega) kk),
    iblk1_apply m c t n kk (colOf t.val n) (kfin (t.val % 4) kk) rfl (kfin_val _ (by omega) kk)]

/-- THE INVARIANT: the accumulator after point n. -/
theorem acc_inv (c : Dev nD) : ∀ (n : ℕ) (h : n < cfg0.N) (r : Fin 256) (j : Fin 512),
    (outsAt0 m c n h).2 (ix2 r j) = acc (X2 m c) (W2 m c) (rowOf n r) (colOf n j) (n % 4)
  | 0, h, r, j => by
    rw [outs_first m c ⟨0, h⟩ rfl, pay2_apply, pay1_apply, blocks_part m c ⟨0, h⟩ r j (iblk m c 0 ⟨0, h⟩) (iblk m c 1 ⟨0, h⟩) rfl rfl]
    rfl
  | n + 1, h, r, j => by
    have hN : n + 1 < 2048 := lt_of_lt_of_eq h (show cfg0.N = 2048 from N_0)
    by_cases h0 : (n + 1) % 4 = 0
    · rw [outs_first m c ⟨n + 1, h⟩ h0, pay2_apply, pay1_apply, blocks_part m c ⟨n + 1, h⟩ r j (iblk m c 0 ⟨n + 1, h⟩) (iblk m c 1 ⟨n + 1, h⟩) rfl rfl]
      show _ + part _ _ _ _ ((n + 1) % 4) = acc _ _ _ _ ((n + 1) % 4)
      rw [h0]
      rfl
    · rw [outs_step m c ⟨n + 1, h⟩ h0, pay2_apply, blocks_part m c ⟨n + 1, h⟩ r j (iblk m c 0 ⟨n + 1, h⟩) (iblk m c 1 ⟨n + 1, h⟩) rfl rfl]
      show (outsAt0 m c n _).2 (ix2 r j) + part _ _ _ _ ((n + 1) % 4) = acc _ _ _ _ ((n + 1) % 4)
      rw [acc_inv c n _ r j]
      have er : rowOf (n + 1) r = rowOf n r :=
        Fin.ext (by show 256 * ((n + 1) / 32 % 64) + r.val = 256 * (n / 32 % 64) + r.val; omega)
      have ec : colOf (n + 1) j = colOf n j :=
        Fin.ext (by show 512 * ((n + 1) / 4 % 8) + j.val = 512 * (n / 4 % 8) + j.val; omega)
      obtain ⟨q, hq⟩ : ∃ q, (n + 1) % 4 = q + 1 := ⟨(n + 1) % 4 - 1, by omega⟩
      have hq' : n % 4 = q := by omega
      rw [er, ec, hq, hq', acc_succ]

/-- The block written back at a point with k = 3 is the specification's block (i, j). -/
theorem out_apply (c : Dev nD) (t : Fin cfg0.N) (h3 : t.val % 4 = 3) (r : Fin 256) (j : Fin 512) :
    (outsAt0 m c t.val t.isLt).1 (ix2 r j)
      = Cert.Spec.G2 (X2 m c) (W2 m c) (B2 m c) (ix2 (rowOf t.val r) (colOf t.val j)) := by
  rw [outs_flush m c t h3, pay3_apply, acc_inv m c t.val t.isLt r j, h3, iblk2_apply m c t j (colOf t.val j) rfl]
  exact silu_acc_three _ _ _ _ _

end Cert.ReferenceIdeal.RefValue

end
-- ==== Proof.RefFinal.lean ====
/-
  From blocks to the array, and the reshape after the region: the reference's run at the ideal values.
  The points with k = 3 write back the [256, 512] blocks (i, j) of the result matrix, and every entry (R, C) of the
  [16384, 4096] matrix lies in exactly such a block — that of the point ((R / 256) · 8 + C / 512) · 4 + 3 —, so after
  the region the matrix is the specification's G2 of the arrays the region read. The last host operation reshapes it
  to [8, 2048, 4096]; the arrays the region read are the reshapes of the arguments; hence the result is
  Spec.result of the three arguments, which end unchanged.
-/
import proofs.«131315_g2000205920323473_pallasbulk_1242_9_alg».proof.Proof.RefInv
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen

variable (m : (ℓ : Loc nD τ sig) → Buf (Elt Ideal) ℓ) (ρ : Dev nD → PrngReg)

/-- The written-back block at a point with k = 3, entry y, is the specification at the entry's place in the matrix. -/
theorem out_at (c : Dev nD) (t : Fin cfg0.N) (h3 : t.val % 4 = 3) (y : S256x512.Idx) (i : S16384x4096.Idx)
    (h0 : (i 0).val = 256 * (t.val / 32) + (y 0).val) (h1 : (i 1).val = 512 * (t.val / 4 % 8) + (y 1).val) :
    (outsAt0 m c t.val t.isLt).1 y = Cert.Spec.G2 (X2 m c) (W2 m c) (B2 m c) i := by
  have hN : t.val < 2048 := lt_of_lt_of_eq t.isLt (show cfg0.N = 2048 from N_0)
  obtain ⟨r, j, rfl⟩ : ∃ (r : Fin 256) (j : Fin 512), y = ix2 r j := ⟨y 0, y 1, eq_ix2 y⟩
  obtain ⟨R, C, rfl⟩ : ∃ (R : Fin 16384) (C : Fin 4096), i = ix2 R C := ⟨i 0, i 1, eq_ix2 i⟩
  have h0' : R.val = 256 * (t.val / 32) + r.val := h0
  have h1' : C.val = 512 * (t.val / 4 % 8) + j.val := h1
  have eR : rowOf t.val r = R := Fin.ext (by show 256 * (t.val / 32 % 64) + r.val = R.val; omega)
  have eC : colOf t.val j = C := Fin.ext (by show 512 * (t.val / 4 % 8) + j.val = C.val; omega)
  rw [out_apply m c t h3 r j, eR, eC]

/-- What a write-back writes is the corresponding block of the specification's matrix. -/
theorem flushed_eq (c : Dev nD) (t : Fin cfg0.N) (hf : (cfg0.win 3).flush t = true) :
    (dats m 0 c).flushed 3 t
      = ((cfg0.win 3).blk t).view.read (Elt Ideal) (Cert.Spec.G2 (X2 m c) (W2 m c) (B2 m c)) := by
  have h3 : t.val % 4 = 3 := (flush0_3 t).mp hf
  obtain ⟨-, -, -, -, -, -, e6, e7⟩ := idx_facts t
  show (cfg0.win 3).cut (grid0.coords t) ((dats m 0 c).after 3 t) = _
  rw [after0_3]
  funext y
  show (outsAt0 m c t.val t.isLt).1 y = Cert.Spec.G2 (X2 m c) (W2 m c) (B2 m c) (((cfg0.win 3).blk t).view.emb y)
  refine out_at m c t h3 y _ ?_ ?_
  · show win0_3.index t (0 : Fin 2) * 256 + 1 * (y 0).val = 256 * (t.val / 32) + (y 0).val
    rw [e6]; omega
  · show win0_3.index t (1 : Fin 2) * 512 + 1 * (y 1).val = 512 * (t.val / 4 % 8) + (y 1).val
    rw [e7]; omega

/-- An entry of the matrix is in point t's block iff each coordinate is in the block's range on its axis. -/
theorem mem_blk (t : Fin cfg0.N) (i : S16384x4096.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_call0_v2).slice (win0_3.rect t)).set ↔ _
  rw [View.set_slice_whole, Rect.mem_set_unit]
  exact Iff.rfl

/-- Every entry of the matrix is in the block of a point that writes back. -/
theorem cover (i : S16384x4096.Idx) :
    ∃ t : Fin cfg0.N, (cfg0.win 3).flush t = true ∧ i ∈ ((cfg0.win 3).blk t).view.set := by
  have hi0 : (i 0).val < 16384 := idx2_lt0 i
  have hi1 : (i 1).val < 4096 := idx2_lt1 i
  have hN : cfg0.N = 2048 := N_0
  obtain ⟨t, ht⟩ : ∃ t : Fin cfg0.N, t.val = ((i 0).val / 256 * 8 + (i 1).val / 512) * 4 + 3 :=
    ⟨⟨((i 0).val / 256 * 8 + (i 1).val / 512) * 4 + 3, by rw [hN]; omega⟩, rfl⟩
  obtain ⟨-, -, -, -, -, -, e6, e7⟩ := idx_facts t
  refine ⟨t, (flush0_3 t).mpr (by rw [ht]; omega), ?_⟩
  rw [mem_blk]
  intro a
  match a with
  | ⟨0, _⟩ =>
    show win0_3.index t (0 : Fin 2) * 256 ≤ (i 0).val ∧ (i 0).val < win0_3.index t (0 : Fin 2) * 256 + 256
    rw [e6, ht]; omega
  | ⟨1, _⟩ =>
    show win0_3.index t (1 : Fin 2) * 512 ≤ (i 1).val ∧ (i 1).val < win0_3.index t (1 : Fin 2) * 512 + 512
    rw [e7, ht]; omega

/-- After the region the result matrix is the specification's matrix of the arrays the region read. -/
theorem final (c : Dev nD) : (dats m 0 c).arrAt 3 cfg0.N = Cert.Spec.G2 (X2 m c) (W2 m c) (B2 m c) :=
  (dats m 0 c).arrAt_eq_of_cover 3 (Cert.Spec.G2 (X2 m c) (W2 m c) (B2 m c)) (flushed_eq m c) cover

/-- The reshape after the region makes it the specification's result of the three arguments. -/
theorem tail_eq (c : Dev nD) :
    Pipeline.afterTail₀ cfgs (dats m) 0 (V0 m) [hostOps1] c main_v0
      = Cert.Spec.result (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v0) = _
  after_results
  have hW : Pipeline.withArrays spec0 c (V0 m c) (fun w => (dats m 0 c).arrAt w cfg0.N) (Proc.devRef .tc main_call0_v2)
      = Cert.Spec.G2 (V m c main_call0_v0) (V m c main_arg1) (V m c main_call0_v1) :=
    (Pipeline.withArrays_arr spec0 launch0.win.arr_inj c _ _ 3).trans (final m c)
  show shapeCast S8x2048x4096
      (Pipeline.withArrays spec0 c (V0 m c) (fun w => (dats m 0 c).arrAt w cfg0.N) (Proc.devRef .tc main_call0_v2))
      shapeCasts_S16384x4096_S8x2048x4096 = _
  rw [hW, V_x, V_b, V_main_arg1]
  rfl

/-- THE REFERENCE'S RUN at the ideal values: every weakly fair execution terminates, the result array holds the
    specification's result of the three argument arrays, and the arguments end unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v0)
        = Cert.Spec.result (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
        = m ((c.tc : Thread Cert.ReferenceIdeal.nD Cert.ReferenceIdeal.τ).loc Cert.ReferenceIdeal.main_arg2)) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.ReferenceIdeal.RefValue

end
-- ==== Proof.lean ====
/-
  The certificate of the fused linear + SiLU kernel against its reference: both compute, at every row r of the
  activations (flattened to a [16384, 4096] matrix) and every output feature n,
      z · logistic z   with   z = (Σ_{k < 4096} x(r, k) · weight(n, k)) + bias(n).
  The kernel sums the contraction in four quarters of 1024 inside one grid point and adds the bias; the reference
  accumulates the same four quarters over a grid axis, starting from zero. On the extended reals addition is
  commutative and associative with no side condition, a change of float format is the identity and both programs apply
  the same logistic, so the two results are the same function of the arguments, element by element; the precondition
  is never opened. Each program's run (every weakly fair execution terminates, nothing faulting, the argument arrays
  unchanged) carries the final contents of its result array; the three frame claims are those runs with the result
  dropped, and the idealization of the kernel rewrote nothing.
-/
import proofs.«131315_g2000205920323473_pallasbulk_1242_9_alg».proof.Defs
import proofs.«131315_g2000205920323473_pallasbulk_1242_9_alg».proof.Proof.Gen.Kernel
import proofs.«131315_g2000205920323473_pallasbulk_1242_9_alg».proof.Proof.Gen.KernelIdeal
import proofs.«131315_g2000205920323473_pallasbulk_1242_9_alg».proof.Proof.Gen.ReferenceIdeal
import proofs.«131315_g2000205920323473_pallasbulk_1242_9_alg».proof.Proof.Gen.ReferenceIdeal.Frame
import proofs.«131315_g2000205920323473_pallasbulk_1242_9_alg».proof.Proof.Gen.Pre_finite_inputs
import proofs.«131315_g2000205920323473_pallasbulk_1242_9_alg».proof.Proof.KBRun
import proofs.«131315_g2000205920323473_pallasbulk_1242_9_alg».proof.Proof.KIRun
import proofs.«131315_g2000205920323473_pallasbulk_1242_9_alg».proof.Proof.KVFinal
import proofs.«131315_g2000205920323473_pallasbulk_1242_9_alg».proof.Proof.RefFinal

noncomputable section

namespace Cert.Proof

open Idealize.ShloMosaic Idealize.SL.Sem

/-- The word-level kernel runs and leaves its arguments unchanged. -/
theorem frame_k : Cert.frame_Kernel := fun m ρ _ => Cert.Kernel.Run.frame (F := Bits) m ρ
/-- So does the kernel read at the ideal values. -/
theorem frame_ki : Cert.frame_KernelIdeal := fun m ρ _ => Cert.KernelIdeal.Run.frame (F := Ideal) m ρ
/-- So does the reference. -/
theorem frame_ri : Cert.frame_ReferenceIdeal := fun m ρ _ => Cert.ReferenceIdeal.Gen.frame m ρ
/-- The ideal reading rewrote no operation of the kernel. -/
theorem preserves : Cert.preserves_Kernel_KernelIdeal := trivial

/-- From memories that agree on the arguments both programs end with the result array at the one function
    `Cert.Spec.result` of the arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨?_, (h c).2⟩) (Cert.ReferenceIdeal.RefValue.run m' ρ')
  rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
